-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S50000 : Shape := ⟨1, ![50000]⟩
abbrev S160x64 : Shape := ⟨2, ![160, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S160x64 : S_.BroadcastsInDim S160x64 (![] : Fin 0 → Fin S160x64.rank)
  reducesTo_S160x64_S_d0_1 : S160x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S64 .f32) (main_arg10 : FVec F S160x64 .f32) (main_arg11 : FVec F S64 .f32) (main_arg12 : FVec F S64x1 .f32) (main_arg13 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S160x64 .f32 := Host.absf main_arg10
  let main_cst_14 : FVec F S_ .f32 := constant S_ .f32 0x7F800000#32
  let main_v40 : FVec F S160x64 .f32 := broadcastInDim S160x64 ![] bcast_S_S160x64 main_cst_14
  let main_v41 : IVec S160x64 1 := cmpf .olt main_v39 main_v40
  let main_c_15 : IVec S_ 1 := constantI S_ 1 1#1
  let main_v42 : IVec S_ 1 := (fun x v => Host.reduce IntOp.andi x v reducesTo_S160x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg13 main_v48 main_v49 main_v50

def fn_part1 {F : FTy → Type} [FloatOps F] (main_arg6 : FVec F S160x64 .f32) (main_arg7 : FVec F S64 .f32) (main_arg8 : FVec F S160x64 .f32) (main_arg9 : FVec F S64 .f32) (main_arg10 : FVec F S160x64 .f32) (main_arg11 : FVec F S64 .f32) (main_arg12 : FVec F S64x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S160x64 .f32 := Host.absf main_arg6
  let main_cst_6 : FVec F S_ .f32 := constant S_ .f32 0x7F800000#32
  let main_v20 : FVec F S160x64 .f32 := broadcastInDim S160x64 ![] bcast_S_S160x64 main_cst_6
  let main_v21 : IVec S160x64 1 := cmpf .olt main_v19 main_v20
  let main_c_7 : IVec S_ 1 := constantI S_ 1 1#1
  let main_v22 : IVec S_ 1 := (fun x v => Host.reduce IntOp.andi x v reducesTo_S160x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S160x64 .f32 := Host.absf main_arg8
  let main_cst_10 : FVec F S_ .f32 := constant S_ .f32 0x7F800000#32
  let main_v30 : FVec F S160x64 .f32 := broadcastInDim S160x64 ![] bcast_S_S160x64 main_cst_10
  let main_v31 : IVec S160x64 1 := cmpf .olt main_v29 main_v30
  let main_c_11 : IVec S_ 1 := constantI S_ 1 1#1
  let main_v32 : IVec S_ 1 := (fun x v => Host.reduce IntOp.andi x v reducesTo_S160x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x64 .f32) (main_arg1 : IVec S2x800000 32) (main_arg2 : FVec F S800000x32 .f32) (main_arg3 : IVec S50000 32) (main_arg4 : FVec F S160x64 .f32) (main_arg5 : FVec F S64 .f32) (main_arg6 : FVec F S160x64 .f32) (main_arg7 : FVec F S64 .f32) (main_arg8 : FVec F S160x64 .f32) (main_arg9 : FVec F S64 .f32) (main_arg10 : FVec F S160x64 .f32) (main_arg11 : FVec F S64 .f32) (main_arg12 : FVec F S64x1 .f32) (main_arg13 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S160x64 .f32 := Host.absf main_arg4
  let main_cst_2 : FVec F S_ .f32 := constant S_ .f32 0x7F800000#32
  let main_v10 : FVec F S160x64 .f32 := broadcastInDim S160x64 ![] bcast_S_S160x64 main_cst_2
  let main_v11 : IVec S160x64 1 := cmpf .olt main_v9 main_v10
  let main_c_3 : IVec S_ 1 := constantI S_ 1 1#1
  let main_v12 : IVec S_ 1 := (fun x v => Host.reduce IntOp.andi x v reducesTo_S160x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S50000 : Shape := ⟨1, ![50000]⟩
abbrev S160x64 : Shape := ⟨2, ![160, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S802816x64 : Shape := ⟨2, ![802816, 64]⟩
abbrev S802816x32 : Shape := ⟨2, ![802816, 32]⟩
abbrev S1x64 : Shape := ⟨2, ![1, 64]⟩
abbrev S8192x64 : Shape := ⟨2, ![8192, 64]⟩
abbrev S8192x32 : Shape := ⟨2, ![8192, 32]⟩
abbrev S64x64 : Shape := ⟨2, ![64, 64]⟩
abbrev S32x64 : Shape := ⟨2, ![32, 64]⟩
abbrev S512x64 : Shape := ⟨2, ![512, 64]⟩
abbrev S50000x1 : Shape := ⟨2, ![50000, 1]⟩
abbrev S512x1 : Shape := ⟨2, ![512, 1]⟩
abbrev S1x1 : Shape := ⟨2, ![1, 1]⟩

abbrev nBuf : Space → Nat
  | .hbm => 98
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S50000, .i32⟩
  | .hbm, ⟨4, _⟩ => ⟨S160x64, .f32⟩
  | .hbm, ⟨5, _⟩ => ⟨S64, .f32⟩
  | .hbm, ⟨6, _⟩ => ⟨S160x64, .f32⟩
  | .hbm, ⟨7, _⟩ => ⟨S64, .f32⟩
  | .hbm, ⟨8, _⟩ => ⟨S160x64, .f32⟩
  | .hbm, ⟨9, _⟩ => ⟨S64, .f32⟩
  | .hbm, ⟨10, _⟩ => ⟨S160x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S_, .i32⟩
  | .hbm, ⟨37, _⟩ => ⟨S_, .f32⟩
  | .hbm, ⟨38, _⟩ => ⟨S802816x64, .f32⟩
  | .hbm, ⟨39, _⟩ => ⟨S_, .i32⟩
  | .hbm, ⟨40, _⟩ => ⟨S_, .f32⟩
  | .hbm, ⟨41, _⟩ => ⟨S802816x64, .f32⟩
  | .hbm, ⟨42, _⟩ => ⟨S_, .i32⟩
  | .hbm, ⟨43, _⟩ => ⟨S_, .f32⟩
  | .hbm, ⟨44, _⟩ => ⟨S802816x32, .f32⟩
  | .hbm, ⟨45, _⟩ => ⟨S1x64, .f32⟩
  | .hbm, ⟨46, _⟩ => ⟨S1x64, .f32⟩
  | .hbm, ⟨47, _⟩ => ⟨S802816x64, .f32⟩
  | .hbm, ⟨48, _⟩ => ⟨S800000x64, .f32⟩
  | .hbm, ⟨49, _⟩ => ⟨S_, .f32⟩
  | .hbm, ⟨50, _⟩ => ⟨S50000x64, .f32⟩
  | .hbm, ⟨51, _⟩ => ⟨S800000x1, .i32⟩
  | .hbm, ⟨52, _⟩ => ⟨S50000x64, .f32⟩
  | .hbm, ⟨53, _⟩ => ⟨S50000x64, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S_, .i32⟩
  | .hbm, ⟨73, _⟩ => ⟨S_, .f32⟩
  | .hbm, ⟨74, _⟩ => ⟨S802816x64, .f32⟩
  | .hbm, ⟨75, _⟩ => ⟨S_, .i32⟩
  | .hbm, ⟨76, _⟩ => ⟨S_, .f32⟩
  | .hbm, ⟨77, _⟩ => ⟨S802816x64, .f32⟩
  | .hbm, ⟨78, _⟩ => ⟨S_, .i32⟩
  | .hbm, ⟨79, _⟩ => ⟨S_, .f32⟩
  | .hbm, ⟨80, _⟩ => ⟨S802816x32, .f32⟩
  | .hbm, ⟨81, _⟩ => ⟨S1x64, .f32⟩
  | .hbm, ⟨82, _⟩ => ⟨S1x64, .f32⟩
  | .hbm, ⟨83, _⟩ => ⟨S802816x64, .f32⟩
  | .hbm, ⟨84, _⟩ => ⟨S800000x64, .f32⟩
  | .hbm, ⟨85, _⟩ => ⟨S_, .f32⟩
  | .hbm, ⟨86, _⟩ => ⟨S50000x64, .f32⟩
  | .hbm, ⟨87, _⟩ => ⟨S800000x1, .i32⟩
  | .hbm, ⟨88, _⟩ => ⟨S50000x64, .f32⟩
  | .hbm, ⟨89, _⟩ => ⟨S50000x64, .f32⟩
  | .hbm, ⟨90, _⟩ => ⟨S_, .f32⟩
  | .hbm, ⟨91, _⟩ => ⟨S512x64, .f32⟩
  | .hbm, ⟨92, _⟩ => ⟨S50000x1, .i32⟩
  | .hbm, ⟨93, _⟩ => ⟨S512x64, .f32⟩
  | .hbm, ⟨94, _⟩ => ⟨S512x1, .f32⟩
  | .hbm, ⟨95, _⟩ => ⟨S1x1, .f32⟩
  | .hbm, ⟨96, _⟩ => ⟨S512x1, .f32⟩
  | .hbm, ⟨97, _⟩ => ⟨S512x1, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S8192x32, .f32⟩
  | .local _ .vmem, ⟨5, _⟩ => ⟨S8192x32, .f32⟩
  | .local _ .vmem, ⟨6, _⟩ => ⟨S160x64, .f32⟩
  | .local _ .vmem, ⟨7, _⟩ => ⟨S1x64, .f32⟩
  | .local _ .vmem, ⟨8, _⟩ => ⟨S160x64, .f32⟩
  | .local _ .vmem, ⟨9, _⟩ => ⟨S1x64, .f32⟩
  | .local _ .vmem, ⟨10, _⟩ => ⟨S8192x64, .f32⟩
  | .local _ .vmem, ⟨11, _⟩ => ⟨S8192x64, .f32⟩
  | .local _ .vmem, ⟨12, _⟩ => ⟨S8192x64, .f32⟩
  | .local _ .vmem, ⟨13, _⟩ => ⟨S8192x64, .f32⟩
  | .local _ .vmem, ⟨14, _⟩ => ⟨S8192x64, .f32⟩
  | .local _ .vmem, ⟨15, _⟩ => ⟨S8192x64, .f32⟩
  | .local _ .vmem, ⟨16, _⟩ => ⟨S8192x32, .f32⟩
  | .local _ .vmem, ⟨17, _⟩ => ⟨S8192x32, .f32⟩
  | .local _ .vmem, ⟨18, _⟩ => ⟨S160x64, .f32⟩
  | .local _ .vmem, ⟨19, _⟩ => ⟨S1x64, .f32⟩
  | .local _ .vmem, ⟨20, _⟩ => ⟨S160x64, .f32⟩
  | .local _ .vmem, ⟨21, _⟩ => ⟨S1x64, .f32⟩
  | .local _ .vmem, ⟨22, _⟩ => ⟨S8192x64, .f32⟩
  | .local _ .vmem, ⟨23, _⟩ => ⟨S8192x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_call0_v0 : Ref sig .tc := ⟨.hbm, 37, rfl⟩
abbrev main_v18 : Ref sig .tc := ⟨.hbm, 38, rfl⟩
abbrev main_c_4 : Ref sig .tc := ⟨.hbm, 39, rfl⟩
abbrev main_call1_v0 : Ref sig .tc := ⟨.hbm, 40, rfl⟩
abbrev main_v19 : Ref sig .tc := ⟨.hbm, 41, rfl⟩
abbrev main_c_5 : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_c_7 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_c_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_10 : Ref sig .tc := ⟨.hbm, 72, rfl⟩
abbrev main_call3_v0 : Ref sig .tc := ⟨.hbm, 73, rfl⟩
abbrev main_v43 : Ref sig .tc := ⟨.hbm, 74, rfl⟩
abbrev main_c_11 : Ref sig .tc := ⟨.hbm, 75, rfl⟩
abbrev main_call4_v0 : Ref sig .tc := ⟨.hbm, 76, rfl⟩
abbrev main_v44 : Ref sig .tc := ⟨.hbm, 77, rfl⟩
abbrev main_c_12 : Ref sig .tc := ⟨.hbm, 78, rfl⟩
abbrev main_call5_v0 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_13 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_14 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S160x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S160x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S160x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S160x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8192x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  pads_S800000x64_S802816x64_028160_000 : S800000x64.Pads (![0, 0] : Fin 2 → Nat) ![2816, 0] ![0, 0] S802816x64
  h_S_ : 0 < S_.numel
  pads_S800000x32_S802816x32_028160_000 : S800000x32.Pads (![0, 0] : Fin 2 → Nat) ![2816, 0] ![0, 0] S802816x32
  shapeCasts_S64_S1x64 : S64.ShapeCasts S1x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S160x64_S64x64_0_0 : ∀ a, (![0, 0] : Fin 2 → Nat) a + S64x64.size a ≤ S160x64.size a
  h_S64x64 : 0 < S64x64.numel
  inb_S160x64_S64x64_64_0 : ∀ a, (![64, 0] : Fin 2 → Nat) a + S64x64.size a ≤ S160x64.size a
  inb_S160x64_S32x64_128_0 : ∀ a, (![128, 0] : Fin 2 → Nat) a + S32x64.size a ≤ S160x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  slices_S802816x64_S800000x64_0_0 : S802816x64.Slices ![0, 0] S800000x64
  bcast_S_S50000x64 : S_.BroadcastsInDim S50000x64 (![] : Fin 0 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S50000x64_S800000x1_S800000x64_1_0_n_n_0_1_164_wf : GatherDims.WF S50000x64 S800000x1 S800000x64 [1] [0] [] [0] [] 1 ![1, 64]
  dot_S8192x64_S64x64_S8192x64_1_0_0_1_n_n_wf : DotDims.WF S8192x64 S64x64 S8192x64 [1] [0] [0] [1] [] []
  dot_S8192x32_S32x64_S8192x64_1_0_0_1_n_n_wf : DotDims.WF S8192x32 S32x64 S8192x64 [1] [0] [0] [1] [] []
  scatter_S50000x64_S800000x1_S800000x64_1_0_0_1_wf : ScatterDims.WF S50000x64 S800000x1 S800000x64 [1] [0] [0] 1
  scatter_S512x64_S50000x1_S50000x64_1_0_0_1_wf : ScatterDims.WF S512x64 S50000x1 S50000x64 [1] [0] [0] 1
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S802816x64.size a
  hwx0_0 : ∀ i : grid0.Coords, EltTy.bits .f32 = 32 ∨ (Rect.block (s := S802816x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S802816x64.size a
  hwx0_1 : ∀ i : grid0.Coords, EltTy.bits .f32 = 32 ∨ (Rect.block (s := S802816x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x32.size a ≤ S802816x32.size a
  hwx0_2 : ∀ i : grid0.Coords, EltTy.bits .f32 = 32 ∨ (Rect.block (s := S802816x32) S8192x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x64.size a ≤ S160x64.size a
  hwx0_3 : ∀ i : grid0.Coords, EltTy.bits .f32 = 32 ∨ (Rect.block (s := S160x64) S160x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S160x64.size a ≤ S160x64.size a
  hwx0_5 : ∀ i : grid0.Coords, EltTy.bits .f32 = 32 ∨ (Rect.block (s := S160x64) S160x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x64.size a ≤ S802816x64.size a
  hwx0_7 : ∀ i : grid0.Coords, EltTy.bits .f32 = 32 ∨ (Rect.block (s := S802816x64) S8192x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S802816x64.size a
  hwx1_0 : ∀ i : grid1.Coords, EltTy.bits .f32 = 32 ∨ (Rect.block (s := S802816x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S802816x64.size a
  hwx1_1 : ∀ i : grid1.Coords, EltTy.bits .f32 = 32 ∨ (Rect.block (s := S802816x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x32.size a ≤ S802816x32.size a
  hwx1_2 : ∀ i : grid1.Coords, EltTy.bits .f32 = 32 ∨ (Rect.block (s := S802816x32) S8192x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S160x64.size a ≤ S160x64.size a
  hwx1_3 : ∀ i : grid1.Coords, EltTy.bits .f32 = 32 ∨ (Rect.block (s := S160x64) S160x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S160x64.size a ≤ S160x64.size a
  hwx1_5 : ∀ i : grid1.Coords, EltTy.bits .f32 = 32 ∨ (Rect.block (s := S160x64) S160x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8192x64.size a ≤ S802816x64.size a
  hwx1_7 : ∀ i : grid1.Coords, EltTy.bits .f32 = 32 ∨ (Rect.block (s := S802816x64) S8192x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_v18) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S8192x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S160x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S160x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S8192x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v43) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S8192x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S8192x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S160x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S160x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S8192x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S50000 : Shape := ⟨1, ![50000]⟩
abbrev S160x64 : Shape := ⟨2, ![160, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x160 : Shape := ⟨2, ![800000, 160]⟩
abbrev S1x64 : Shape := ⟨2, ![1, 64]⟩
abbrev S512x64 : Shape := ⟨2, ![512, 64]⟩
abbrev S50000x1 : Shape := ⟨2, ![50000, 1]⟩
abbrev S512x1 : Shape := ⟨2, ![512, 1]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S50000x64, .f32⟩
  | 1 => ⟨S2x800000, .i32⟩
  | 2 => ⟨S800000x32, .f32⟩
  | 3 => ⟨S50000, .i32⟩
  | 4 => ⟨S160x64, .f32⟩
  | 5 => ⟨S64, .f32⟩
  | 6 => ⟨S160x64, .f32⟩
  | 7 => ⟨S64, .f32⟩
  | 8 => ⟨S160x64, .f32⟩
  | 9 => ⟨S64, .f32⟩
  | 10 => ⟨S160x64, .f32⟩
  | 11 => ⟨S64, .f32⟩
  | 12 => ⟨S64x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x64, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x64, .f32⟩
  | 36 => ⟨S800000x160, .f32⟩
  | 37 => ⟨S800000x64, .f32⟩
  | 38 => ⟨S1x64, .f32⟩
  | 39 => ⟨S800000x64, .f32⟩
  | 40 => ⟨S800000x64, .f32⟩
  | 41 => ⟨S800000x64, .f32⟩
  | 42 => ⟨S800000x64, .f32⟩
  | 43 => ⟨S_, .f32⟩
  | 44 => ⟨S800000x64, .f32⟩
  | 45 => ⟨S800000x64, .f32⟩
  | 46 => ⟨S_, .f32⟩
  | 47 => ⟨S800000x64, .f32⟩
  | 48 => ⟨S800000x64, .f32⟩
  | 49 => ⟨S800000x64, .f32⟩
  | 50 => ⟨S1x64, .f32⟩
  | 51 => ⟨S800000x64, .f32⟩
  | 52 => ⟨S800000x64, .f32⟩
  | 53 => ⟨S_, .f32⟩
  | 54 => ⟨S800000x64, .f32⟩
  | 55 => ⟨S800000x64, .f32⟩
  | 56 => ⟨S800000x64, .f32⟩
  | 57 => ⟨S800000x64, .f32⟩
  | 58 => ⟨S800000x64, .i1⟩
  | 59 => ⟨S800000x64, .f32⟩
  | 60 => ⟨S800000x64, .f32⟩
  | 61 => ⟨S800000x64, .f32⟩
  | 62 => ⟨S800000x64, .f32⟩
  | 63 => ⟨S800000x64, .f32⟩
  | 64 => ⟨S800000x64, .f32⟩
  | 65 => ⟨S800000x64, .f32⟩
  | 66 => ⟨S800000x64, .f32⟩
  | 67 => ⟨S800000x64, .f32⟩
  | 68 => ⟨S_, .f32⟩
  | 69 => ⟨S50000x64, .f32⟩
  | 70 => ⟨S800000x1, .i32⟩
  | 71 => ⟨S50000x64, .f32⟩
  | 72 => ⟨S50000x64, .f32⟩
  | 73 => ⟨S1x800000, .i32⟩
  | 74 => ⟨S800000, .i32⟩
  | 75 => ⟨S1x800000, .i32⟩
  | 76 => ⟨S800000, .i32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x64, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x64, .f32⟩
  | 95 => ⟨S800000x160, .f32⟩
  | 96 => ⟨S800000x64, .f32⟩
  | 97 => ⟨S1x64, .f32⟩
  | 98 => ⟨S800000x64, .f32⟩
  | 99 => ⟨S800000x64, .f32⟩
  | 100 => ⟨S800000x64, .f32⟩
  | 101 => ⟨S800000x64, .f32⟩
  | 102 => ⟨S_, .f32⟩
  | 103 => ⟨S800000x64, .f32⟩
  | 104 => ⟨S800000x64, .f32⟩
  | 105 => ⟨S_, .f32⟩
  | 106 => ⟨S800000x64, .f32⟩
  | 107 => ⟨S800000x64, .f32⟩
  | 108 => ⟨S800000x64, .f32⟩
  | 109 => ⟨S1x64, .f32⟩
  | 110 => ⟨S800000x64, .f32⟩
  | 111 => ⟨S800000x64, .f32⟩
  | 112 => ⟨S_, .f32⟩
  | 113 => ⟨S800000x64, .f32⟩
  | 114 => ⟨S800000x64, .f32⟩
  | 115 => ⟨S800000x64, .f32⟩
  | 116 => ⟨S800000x64, .f32⟩
  | 117 => ⟨S800000x64, .i1⟩
  | 118 => ⟨S800000x64, .f32⟩
  | 119 => ⟨S800000x64, .f32⟩
  | 120 => ⟨S800000x64, .f32⟩
  | 121 => ⟨S800000x64, .f32⟩
  | 122 => ⟨S800000x64, .f32⟩
  | 123 => ⟨S800000x64, .f32⟩
  | 124 => ⟨S800000x64, .f32⟩
  | 125 => ⟨S800000x64, .f32⟩
  | 126 => ⟨S800000x64, .f32⟩
  | 127 => ⟨S_, .f32⟩
  | _ => ⟨S50000x64, .f32⟩

abbrev hbmTy0_1 (i : Nat) : BufTy := match i % 128 with
  | 0 => ⟨S50000x64, .f32⟩
  | 1 => ⟨S800000x1, .i32⟩
  | 2 => ⟨S50000x64, .f32⟩
  | 3 => ⟨S50000x64, .f32⟩
  | 4 => ⟨S_, .f32⟩
  | 5 => ⟨S512x64, .f32⟩
  | 6 => ⟨S50000x1, .i32⟩
  | 7 => ⟨S512x64, .f32⟩
  | 8 => ⟨S512x1, .f32⟩
  | 9 => ⟨S1x1, .f32⟩
  | 10 => ⟨S512x1, .f32⟩
  | 11 => ⟨S512x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_v33 : Ref sig .tc := ⟨.hbm, 66, rfl⟩
abbrev main_v34 : Ref sig .tc := ⟨.hbm, 67, rfl⟩
abbrev main_cst_4 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_5 : Ref sig .tc := ⟨.hbm, 77, rfl⟩
abbrev main_v43 : Ref sig .tc := ⟨.hbm, 78, rfl⟩
abbrev main_v44 : Ref sig .tc := ⟨.hbm, 79, rfl⟩
abbrev main_c_6 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_c_7 : Ref sig .tc := ⟨.hbm, 86, rfl⟩
abbrev main_v50 : Ref sig .tc := ⟨.hbm, 87, rfl⟩
abbrev main_v51 : Ref sig .tc := ⟨.hbm, 88, rfl⟩
abbrev main_c_8 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_9 : Ref sig .tc := ⟨.hbm, 102, rfl⟩
abbrev main_v64 : Ref sig .tc := ⟨.hbm, 103, rfl⟩
abbrev main_v65 : Ref sig .tc := ⟨.hbm, 104, rfl⟩
abbrev main_cst_10 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_call1_cst : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_v8 : Ref sig .tc := ⟨.hbm, 121, rfl⟩
abbrev main_call1_v9 : Ref sig .tc := ⟨.hbm, 122, rfl⟩
abbrev main_call1_v10 : Ref sig .tc := ⟨.hbm, 123, rfl⟩
abbrev main_call1_v11 : Ref sig .tc := ⟨.hbm, 124, rfl⟩
abbrev main_v72 : Ref sig .tc := ⟨.hbm, 125, rfl⟩
abbrev main_v73 : Ref sig .tc := ⟨.hbm, 126, rfl⟩
abbrev main_cst_11 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_12 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x160_d1 : Shape.Concatenates [S800000x64, S800000x64, S800000x32] S800000x160 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S50000x64_S800000x1_S800000x64_1_0_n_n_0_1_164_wf : GatherDims.WF S50000x64 S800000x1 S800000x64 [1] [0] [] [0] [] 1 ![1, 64]
  dot_S800000x160_S160x64_S800000x64_1_0_0_1_n_n_wf : DotDims.WF S800000x160 S160x64 S800000x64 [1] [0] [0] [1] [] []
  scatter_S50000x64_S800000x1_S800000x64_1_0_0_1_wf : ScatterDims.WF S50000x64 S800000x1 S800000x64 [1] [0] [0] 1
  scatter_S512x64_S50000x1_S50000x64_1_0_0_1_wf : ScatterDims.WF S512x64 S50000x1 S50000x64 [1] [0] [0] 1
  dot_S512x64_S64x1_S512x1_1_0_0_1_n_n_wf : DotDims.WF S512x64 S64x1 S512x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x160_S160x64_S800000x64_1_0_0_1_n_n : DotDims S800000x160 S160x64 S800000x64 where
  lhsContracting := [1]
  rhsContracting := [0]
  lhsNonContracting := [0]
  rhsNonContracting := [1]
  lhsBatch := []
  rhsBatch := []
  wf := dot_S800000x160_S160x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.KerRun.lean ====
/-
  The kernel program's run, with its result named.

  @main is seventeen segments — stretches of host operations and the two launches of the message kernel. The contents of
  every buffer at each segment boundary are a fold from the launch memory: a stretch applies its operations, a launch
  replaces its arrays by what its write-backs leave. Every weakly fair execution terminates, and every unscoped buffer
  ends at the last boundary's contents; in particular the result buffer, and each argument, which no segment writes.
-/
import proofs.«146160_j84353157693983_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the argument arrays as launched. -/
theorem run_main : θ_run defs (onTc (τ := τ) (main (F := F))) ⟨m, fun _ => 0, ρ⟩ (fun r => ∀ c : Dev nD,
      r.2.mem ((c.tc : Thread nD τ).loc main_v60) = W17 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v60 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c)⟩)

end Cert.KernelIdeal.Run

end
-- ==== Proof.GateLaw.lean ====
/-
  The gate of one edge message, on the extended reals: sigmoid(a) · softplus(b).

  Both programs compute softplus(b) as log(1 + e^b) in the overflow-safe form max(b, 0) + log1p(e^(−|b − 0|)), under a
  guard "b − 0 differs from itself" that no extended real satisfies (there is no not-a-number among them), so the
  guarded branch b + 0 is never taken. The kernel takes the sigmoid as one operation and writes the exponent as
  0 − |b − 0|; the reference spells the sigmoid 1 / (1 + e^(−a)) and negates |b − 0|. On the extended reals the one
  operation IS that quotient, 0 − y is −y and b − 0 is b, so the two spellings are one function of (a, b).
-/
import Idealize.ShloMosaic.PureOps.Ideal
import Idealize.ShloMosaic.PureOps.Ideal.Laws
import Idealize.ShloMosaic.Lib.IdealHost

noncomputable section

namespace Cert.Msg

open Idealize.ShloMosaic

/-- log(1 + e^z), written max(z, 0) + log1p(e^(−|z|)). -/
def softplus (z : EReal) : EReal :=
  max z 0 + Ideal.log1p (Ideal.exp (-(FloatOps.absf (F := Ideal) (φ := .f32) z)))

/-- sigmoid(a) · softplus(b). -/
def gate (a b : EReal) : EReal := Ideal.logistic a * softplus b

/-- No extended real differs from itself: a selection guarded by "d ≠ d" (ordered or unordered spelling) takes its
    second branch. -/
theorem select_ne_self_one (d x y : EReal) : Scalar.select (Ideal.cmp CmpFPredicate.one d d) x y = y := by
  simp [Scalar.select, Ideal.cmp]

theorem select_ne_self_une (d x y : EReal) : Scalar.select (Ideal.cmp CmpFPredicate.une d d) x y = y := by
  simp [Scalar.select, Ideal.cmp]

/-- The kernel's spelling of the gate at one entry. -/
theorem kernel_gate (a b : Ideal .f32) :
    FloatOps.mulf (FloatOps.logistic a)
      (Scalar.select
        (FloatOps.cmpf CmpFPredicate.one (FloatOps.subf b (FloatOps.ofBits FTy.f32 0#32))
          (FloatOps.subf b (FloatOps.ofBits FTy.f32 0#32)))
        (FloatOps.addf b (FloatOps.ofBits FTy.f32 0#32))
        (FloatOps.addf (FloatOps.maximumf b (FloatOps.ofBits FTy.f32 0#32))
          (FloatOps.log1p
            (FloatOps.exp
              (FloatOps.subf (FloatOps.ofBits FTy.f32 0#32)
                (FloatOps.absf (FloatOps.subf b (FloatOps.ofBits FTy.f32 0#32)))))))) = gate a b := by
  have hz : Ideal.ofBits .f32 0#32 = 0 := Ideal.ofBits_zero_f32
  simp only [Ideal.mulf_def, Ideal.logistic_def, Ideal.subf_def, Ideal.addf_def, Ideal.maximumf_def, Ideal.log1p_def,
    Ideal.exp_def, Ideal.ofBits_def, hz, sub_zero, zero_sub]
  rw [show FloatOps.cmpf CmpFPredicate.one b b = Ideal.cmp CmpFPredicate.one b b from rfl, select_ne_self_one]
  rfl

/-- The reference's spelling of the gate at one entry. -/
theorem reference_gate (a b : Ideal .f32) :
    FloatOps.mulf (FloatOps.hostDivf (FloatOps.ofBits FTy.f32 0x3F800000#32)
        (FloatOps.addf (FloatOps.ofBits FTy.f32 0x3F800000#32) (FloatOps.hostUnary .exp (FloatOps.hostNegf a))))
      (Scalar.select
        (FloatOps.cmpf CmpFPredicate.une (FloatOps.subf b (FloatOps.ofBits FTy.f32 0#32))
          (FloatOps.subf b (FloatOps.ofBits FTy.f32 0#32)))
        (FloatOps.addf b (FloatOps.ofBits FTy.f32 0#32))
        (FloatOps.addf (FloatOps.maximumf b (FloatOps.ofBits FTy.f32 0#32))
          (FloatOps.hostUnary .log1p
            (FloatOps.hostUnary .exp
              (FloatOps.hostNegf
                (FloatOps.hostAbsf (FloatOps.subf b (FloatOps.ofBits FTy.f32 0#32)))))))) = gate a b := by
  have hz : Ideal.ofBits .f32 0#32 = 0 := Ideal.ofBits_zero_f32
  simp only [Ideal.mulf_def, Ideal.hostDivf_def, Ideal.subf_def, Ideal.addf_def, Ideal.maximumf_def,
    Ideal.hostUnary_log1p_def, Ideal.hostUnary_exp_def, Ideal.hostNegf_def, Ideal.hostAbsf_def, Ideal.negf_def,
    Ideal.ofBits_def, hz, Ideal.ofBits_one_f32, sub_zero]
  rw [show FloatOps.cmpf CmpFPredicate.une b b = Ideal.cmp CmpFPredicate.une b b from rfl, select_ne_self_une]
  rfl

end Cert.Msg

end
-- ==== Proof.LibSplitSum.lean ====
/-
  A finite sum over a + b, or a + b + c, consecutive positions is the sum of the sums over its consecutive stretches — in
  any additive commutative monoid, so also on the extended reals, where nothing is assumed finite. The dot-product form:
  a row made of three stretches, times a column, is the sum of the three stretches' dot products with the matching
  stretches of the column. This is the law that joins a product with a concatenated operand to the sum of products with
  the operand's pieces.
-/
import Mathlib.Algebra.BigOperators.Fin

namespace Cert.Lib.SplitSum

variable {M : Type} [AddCommMonoid M]

/-- Two stretches. -/
theorem sum_two (a b n : ℕ) (h : a + b = n) (f : Fin n → M) :
    ∑ k : Fin n, f k = (∑ k : Fin a, f ⟨k.val, by omega⟩) + ∑ k : Fin b, f ⟨a + k.val, by omega⟩ := by
  subst h
  rw [Fin.sum_univ_add]
  rfl

/-- Three stretches. -/
theorem sum_three (a b c n : ℕ) (h : a + b + c = n) (f : Fin n → M) :
    ∑ k : Fin n, f k
      = ((∑ k : Fin a, f ⟨k.val, by omega⟩) + ∑ k : Fin b, f ⟨a + k.val, by omega⟩)
        + ∑ k : Fin c, f ⟨a + b + k.val, by omega⟩ := by
  rw [sum_two (a + b) c n h f, sum_two a b (a + b) rfl (fun k => f ⟨k.val, by omega⟩)]

variable [Mul M]

/-- A row of two stretches times a column. -/
theorem dot_two (a b n : ℕ) (h : a + b = n) (x w : Fin n → M) (x₁ : Fin a → M) (x₂ : Fin b → M)
    (h₁ : ∀ k : Fin a, x ⟨k.val, by omega⟩ = x₁ k) (h₂ : ∀ k : Fin b, x ⟨a + k.val, by omega⟩ = x₂ k) :
    ∑ k : Fin n, x k * w k
      = (∑ k : Fin a, x₁ k * w ⟨k.val, by omega⟩) + ∑ k : Fin b, x₂ k * w ⟨a + k.val, by omega⟩ := by
  rw [sum_two a b n h]
  congr 1
  · exact Finset.sum_congr rfl fun k _ => by rw [h₁ k]
  · exact Finset.sum_congr rfl fun k _ => by rw [h₂ k]

/-- A row of three stretches times a column. -/
theorem dot_three (a b c n : ℕ) (h : a + b + c = n) (x w : Fin n → M) (x₁ : Fin a → M) (x₂ : Fin b → M) (x₃ : Fin c → M)
    (h₁ : ∀ k : Fin a, x ⟨k.val, by omega⟩ = x₁ k) (h₂ : ∀ k : Fin b, x ⟨a + k.val, by omega⟩ = x₂ k)
    (h₃ : ∀ k : Fin c, x ⟨a + b + k.val, by omega⟩ = x₃ k) :
    ∑ k : Fin n, x k * w k
      = ((∑ k : Fin a, x₁ k * w ⟨k.val, by omega⟩) + ∑ k : Fin b, x₂ k * w ⟨a + k.val, by omega⟩)
        + ∑ k : Fin c, x₃ k * w ⟨a + b + k.val, by omega⟩ := by
  rw [sum_three a b c n h]
  congr 1
  · congr 1
    · exact Finset.sum_congr rfl fun k _ => by rw [h₁ k]
    · exact Finset.sum_congr rfl fun k _ => by rw [h₂ k]
  · exact Finset.sum_congr rfl fun k _ => by rw [h₃ k]

end Cert.Lib.SplitSum
-- ==== Proof.RowMsg.lean ====
/-
  One edge's message at one output column, as a function of the edge's three feature rows.

  The edge's input row is the destination node's 64 features, then the source node's 64, then the edge's own 32: 160
  entries. Each of the two linear maps sends it to (row · column of W) + bias. The reference forms the 160-entry row and
  takes one dot product; the kernel takes three dot products, of the three stretches with the matching stretches of the
  weight column, and adds them. A finite sum over 64 + 64 + 32 consecutive positions is the sum of its three stretches'
  sums in any additive commutative monoid, so the two agree on the extended reals with nothing assumed finite. The
  message is then sigmoid(first map) · softplus(second map).
-/
import proofs.«146160_j84353157693983_1_alg».proof.Proof.GateLaw
import proofs.«146160_j84353157693983_1_alg».proof.Proof.LibSplitSum

noncomputable section

namespace Cert.Msg

open Idealize.ShloMosaic

/-- The affine map of the three-stretch row at one output column: the three stretches' dot products with the weight
    column's stretches, added left to right, plus the bias. -/
def lin3 (xd xs : Fin 64 → EReal) (ea : Fin 32 → EReal) (W : Fin 160 → EReal) (b : EReal) : EReal :=
  (((∑ k : Fin 64, xd k * W ⟨k.val, by omega⟩) + ∑ k : Fin 64, xs k * W ⟨64 + k.val, by omega⟩)
    + ∑ k : Fin 32, ea k * W ⟨64 + 64 + k.val, by omega⟩) + b

/-- The message entry: the gate of the two affine maps. -/
def rowMsg (xd xs : Fin 64 → EReal) (ea : Fin 32 → EReal) (Wf Ws : Fin 160 → EReal) (bf bs : EReal) : EReal :=
  gate (lin3 xd xs ea Wf bf) (lin3 xd xs ea Ws bs)

/-- One dot product of the whole 160-entry row, plus the bias, is the three-stretch form. -/
theorem lin3_of_row (z W : Fin 160 → EReal) (xd xs : Fin 64 → EReal) (ea : Fin 32 → EReal) (b : EReal)
    (h₁ : ∀ k : Fin 64, z ⟨k.val, by omega⟩ = xd k) (h₂ : ∀ k : Fin 64, z ⟨64 + k.val, by omega⟩ = xs k)
    (h₃ : ∀ k : Fin 32, z ⟨64 + 64 + k.val, by omega⟩ = ea k) :
    (∑ k : Fin 160, z k * W k) + b = lin3 xd xs ea W b := by
  rw [Cert.Lib.SplitSum.dot_three 64 64 32 160 rfl z W xd xs ea h₁ h₂ h₃]
  rfl

end Cert.Msg

end
-- ==== Proof.PadMsg.lean ====
/-
  What one launch of the message kernel leaves in its output array, as ONE function of its seven operand arrays.

  The launch walks 98 blocks of 8192 edge rows. Row r of the output depends only on row r of the three row-blocked
  operands (destination features, source features, edge features: 64, 64 and 32 columns) and on the whole of the four
  small operands (the two 160 x 64 weight matrices and the two 1 x 64 bias rows): entry (r, c) is the message entry of
  Proof/RowMsg.lean at those rows and at column c of the weights and biases. Stated over the padded row count 802816.
-/
import proofs.«146160_j84353157693983_1_alg».proof.Proof.RowMsg
import Idealize.ShloMosaic.Lib.ValueIdx

noncomputable section

namespace Cert.Msg

open Idealize.ShloMosaic Idealize.ShloMosaic.ValueIdx

/-- Entry (r, c) of the messages of n edge rows. -/
def msgEntry {n : Nat} (xd xs : (⟨2, ![n, 64]⟩ : Shape).Idx → EReal) (ea : (⟨2, ![n, 32]⟩ : Shape).Idx → EReal)
    (Wf : (⟨2, ![160, 64]⟩ : Shape).Idx → EReal) (bf : (⟨2, ![1, 64]⟩ : Shape).Idx → EReal)
    (Ws : (⟨2, ![160, 64]⟩ : Shape).Idx → EReal) (bs : (⟨2, ![1, 64]⟩ : Shape).Idx → EReal)
    (r : Fin n) (c : Fin 64) : EReal :=
  rowMsg (fun k => xd (ix2 r k)) (fun k => xs (ix2 r k)) (fun k => ea (ix2 r k))
    (fun k => Wf (ix2 k c)) (fun k => Ws (ix2 k c)) (bf (ix2 (0 : Fin 1) c)) (bs (ix2 (0 : Fin 1) c))

/-- The messages of n edge rows as an array. -/
def msgArray {n : Nat} (xd xs : (⟨2, ![n, 64]⟩ : Shape).Idx → EReal) (ea : (⟨2, ![n, 32]⟩ : Shape).Idx → EReal)
    (Wf : (⟨2, ![160, 64]⟩ : Shape).Idx → EReal) (bf : (⟨2, ![1, 64]⟩ : Shape).Idx → EReal)
    (Ws : (⟨2, ![160, 64]⟩ : Shape).Idx → EReal) (bs : (⟨2, ![1, 64]⟩ : Shape).Idx → EReal) :
    (⟨2, ![n, 64]⟩ : Shape).Idx → EReal :=
  fun i => msgEntry xd xs ea Wf bf Ws bs (i 0) (i 1)

theorem msgArray_apply {n : Nat} (xd xs : (⟨2, ![n, 64]⟩ : Shape).Idx → EReal) (ea : (⟨2, ![n, 32]⟩ : Shape).Idx → EReal)
    (Wf : (⟨2, ![160, 64]⟩ : Shape).Idx → EReal) (bf : (⟨2, ![1, 64]⟩ : Shape).Idx → EReal)
    (Ws : (⟨2, ![160, 64]⟩ : Shape).Idx → EReal) (bs : (⟨2, ![1, 64]⟩ : Shape).Idx → EReal) (r : Fin n) (c : Fin 64) :
    msgArray xd xs ea Wf bf Ws bs (ix2 r c) = msgEntry xd xs ea Wf bf Ws bs r c := rfl

end Cert.Msg

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibPlainProduct.lean ====
/-
  The plain matrix product — an [M, K] matrix times a [K, N] matrix, the left operand's axis 1 contracted against the
  right operand's axis 0, no batch axis — read at an entry (p, q) as the sum over k of x(p, k) · w(k, q), on the extended
  reals: for the host's product and for the matrix unit's product into a zero accumulator. The operands' indices at
  contraction position k are computed once here, for every M, K, N, so a caller only names its entry.
-/
import proofs.«146160_j84353157693983_1_alg».proof.Proof.LibDotSum

namespace Idealize.ShloMosaic.PlainProduct

open Idealize.ShloMosaic Idealize.ShloMosaic.ValueIdx

variable (M K N : Nat)

theorem contr_rank : (DotDims.plain M K N).contr.rank = 1 := rfl

theorem contr_size : (DotDims.plain M K N).contr.size ⟨0, by rw [contr_rank]; omega⟩ = K := rfl

/-- The left operand is read at row p, column k. -/
theorem lhsIdx_eq (p : Fin M) (q : Fin N) (k : Fin K) :
    (DotDims.plain M K N).lhsIdx (ix2 p q)
      ((contrEquiv1 (DotDims.plain M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.plain M K N).lhsIdx_val_of_single rfl (ix2 p q) _).trans
      (contrEquiv1_symm_val (DotDims.plain M K N) K (contr_rank M K N) (contr_size M K N) k)

/-- The right operand is read at row k, column q. -/
theorem rhsIdx_eq (p : Fin M) (q : Fin N) (k : Fin K) :
    (DotDims.plain M K N).rhsIdx (ix2 p q)
      ((contrEquiv1 (DotDims.plain M K N) K (contr_rank M K N) (contr_size M K N)).symm k) = ix2 k q := by
  funext a
  apply Fin.ext
  match a with
  | ⟨0, _⟩ =>
    exact ((DotDims.plain M K N).rhsIdx_val_of_single rfl (ix2 p q) _).trans
      (contrEquiv1_symm_val (DotDims.plain M K N) K (contr_rank M K N) (contr_size M K N) k)
  | ⟨1, _⟩ =>
    unfold DotDims.rhsIdx
    split
    · next hb => exact absurd hb List.not_mem_nil
    · split
      · rfl
      · next hn => exact absurd (List.mem_singleton.mpr rfl) hn

/-- The host's plain product at (p, q). -/
theorem dotGeneral_at {φ₁ φ₂ : FTy} (x : FVec Ideal ⟨2, ![M, K]⟩ φ₁) (w : FVec Ideal ⟨2, ![K, N]⟩ φ₂) (p : Fin M) (q : Fin N) :
    Host.dotGeneral (DotDims.plain M K N) none x w (ix2 p q) = ∑ k : Fin K, x (ix2 p k) * w (ix2 k q) :=
  DotSum.dotGeneral_eq_sum (DotDims.plain M K N) K (contr_rank M K N) (contr_size M K N) x w (ix2 p q)
    (fun k => ix2 p k) (fun k => ix2 k q) (lhsIdx_eq M K N p q) (rhsIdx_eq M K N p q)

/-- The matrix unit's plain product into zeros at (p, q). -/
theorem matmul_zero_at {φ₁ φ₂ : FTy} (x : FVec Ideal ⟨2, ![M, K]⟩ φ₁) (w : FVec Ideal ⟨2, ![K, N]⟩ φ₂) (p : Fin M) (q : Fin N) :
    matmul (DotDims.plain M K N) none x w (constant ⟨2, ![M, N]⟩ .f32 0x00000000#32) (ix2 p q)
      = ∑ k : Fin K, x (ix2 p k) * w (ix2 k q) :=
  DotSum.matmul_zero_eq_sum (DotDims.plain M K N) K (contr_rank M K N) (contr_size M K N) x w (ix2 p q)
    (fun k => ix2 p k) (fun k => ix2 k q) (lhsIdx_eq M K N p q) (rhsIdx_eq M K N p q)

end Idealize.ShloMosaic.PlainProduct
-- ==== Proof.Block0.lean ====
/-
  One block of the message kernel, entry by entry.

  The body loads its whole blocks of destination, source and edge feature rows, three row stretches of each weight
  matrix (rows 0-63, 64-127, 128-159) and the two bias rows; forms each affine map as three matrix products into zero
  accumulators added left to right plus the bias row repeated down the block; and stores sigmoid(first) · softplus(second)
  over the whole output block. Roundings to a narrower float format are the identity on the extended reals. So entry
  (p, q) of the stored block is the message entry of Proof/PadMsg.lean at the blocks' row p and the weights' column q.
-/
import proofs.«146160_j84353157693983_1_alg».proof.Proof.Gen.KernelIdeal.Frame
import proofs.«146160_j84353157693983_1_alg».proof.Proof.PadMsg
import proofs.«146160_j84353157693983_1_alg».proof.Proof.LibPlainProduct
import Idealize.ShloMosaic.Lib.Pipeline.Value
import Idealize.ShloMosaic.Lib.ValueIdx

noncomputable section

namespace Cert.KernelIdeal.Block0

open Cert.KernelIdeal Cert.KernelIdeal.Gen Idealize.ShloMosaic Idealize.ShloMosaic.ValueIdx Cert.Msg

theorem hz : (![0, 0] : Fin 2 → Nat) = fun _ => 0 := funext fun a => by fin_cases a <;> rfl

/-- A block of 64-column rows times a 64 x 64 matrix, into zeros, at (p, q). -/
theorem mm64 {φ₁ φ₂ : FTy} (x : FVec Ideal S8192x64 φ₁) (w : FVec Ideal S64x64 φ₂) (p : Fin 8192) (q : Fin 64) :
    matmul dot_S8192x64_S64x64_S8192x64_1_0_0_1_n_n none x w (constant S8192x64 .f32 0x00000000#32) (ix2 p q)
      = ∑ k : Fin 64, x (ix2 p k) * w (ix2 k q) :=
  PlainProduct.matmul_zero_at 8192 64 64 x w p q

/-- A block of 32-column rows times a 32 x 64 matrix, into zeros, at (p, q). -/
theorem mm32 {φ₁ φ₂ : FTy} (x : FVec Ideal S8192x32 φ₁) (w : FVec Ideal S32x64 φ₂) (p : Fin 8192) (q : Fin 64) :
    matmul dot_S8192x32_S32x64_S8192x64_1_0_0_1_n_n none x w (constant S8192x64 .f32 0x00000000#32) (ix2 p q)
      = ∑ k : Fin 32, x (ix2 p k) * w (ix2 k q) :=
  PlainProduct.matmul_zero_at 8192 32 64 x w p q

/-- The bias row, repeated down the block, read at (p, q). -/
theorem bias_at (b : Vec Ideal S1x64 .f32) (p : Fin 8192) (q : Fin 64) :
    broadcastTo S8192x64 (shapeCast S1x64 b shapeCasts_S1x64_S1x64) broadcasts_S1x64_S8192x64 (ix2 p q)
      = b (ix2 (0 : Fin 1) q) := by
  rw [shapeCast_self]
  exact broadcastTo_apply b broadcasts_S1x64_S8192x64 (ix2 p q) (ix2 (0 : Fin 1) q) (fun a => by
    match a with
    | ⟨0, _⟩ => rfl
    | ⟨1, _⟩ => rfl)

/-- Rows 0-63 of a weight matrix: the stretch's entry (k, q) is the matrix's (k, q). -/
theorem idx_w0 (k : Fin 64) (q : Fin 64) : r0_2.idx (ix2 k q) = ix2 (⟨k.val, by omega⟩ : Fin 160) q := by
  funext a
  apply Fin.ext
  match a with
  | ⟨0, _⟩ => show 0 + 1 * k.val = k.val; omega
  | ⟨1, _⟩ => show 0 + 1 * q.val = q.val; omega

/-- Rows 64-127: the stretch's entry (k, q) is the matrix's (64 + k, q). -/
theorem idx_w1 (k : Fin 64) (q : Fin 64) : r0_3.idx (ix2 k q) = ix2 (⟨64 + k.val, by omega⟩ : Fin 160) q := by
  funext a
  apply Fin.ext
  match a with
  | ⟨0, _⟩ => show 64 + 1 * k.val = 64 + k.val; omega
  | ⟨1, _⟩ => show 0 + 1 * q.val = q.val; omega

/-- Rows 128-159: the stretch's entry (k, q) is the matrix's (128 + k, q). -/
theorem idx_w2 (k : Fin 32) (q : Fin 64) : r0_4.idx (ix2 k q) = ix2 (⟨64 + 64 + k.val, by omega⟩ : Fin 160) q := by
  funext a
  apply Fin.ext
  match a with
  | ⟨0, _⟩ => show 128 + 1 * k.val = 64 + 64 + k.val; omega
  | ⟨1, _⟩ => show 0 + 1 * q.val = q.val; omega

/-- The first affine map at (p, q): three dot products and the bias. -/
theorem lin_f (v0 v3 : Vec Ideal S8192x64 .f32) (v6 : Vec Ideal S8192x32 .f32) (v9 v11 : Vec Ideal S64x64 .f32)
    (v13 : Vec Ideal S32x64 .f32) (v26 : Vec Ideal S1x64 .f32) (p : Fin 8192) (q : Fin 64) :
    k0_pay6 v0 v3 v6 v9 v11 v13 v26 (ix2 p q)
      = (((∑ k : Fin 64, v0 (ix2 p k) * v9 (ix2 k q)) + ∑ k : Fin 64, v3 (ix2 p k) * v11 (ix2 k q))
          + ∑ k : Fin 32, v6 (ix2 p k) * v13 (ix2 k q)) + v26 (ix2 (0 : Fin 1) q) := by
  unfold k0_pay6 k0_pay2 k0_pay3 k0_pay4
  simp only [addf]
  rw [mm64, mm64, mm32, bias_at]
  simp only [truncf, Ideal.truncf_def, shapeCast_self, Ideal.addf_def]

/-- The second affine map at (p, q), as the body assembles it from its two parts. -/
theorem lin_s (v0 v3 : Vec Ideal S8192x64 .f32) (v6 : Vec Ideal S8192x32 .f32) (v15 v17 : Vec Ideal S64x64 .f32)
    (v19 : Vec Ideal S32x64 .f32) (v35 : Vec Ideal S1x64 .f32) (p : Fin 8192) (q : Fin 64) :
    FloatOps.addf
        (FloatOps.addf (k0_pay7 v0 v3 v15 v17 (ix2 p q))
          (matmul dot_S8192x32_S32x64_S8192x64_1_0_0_1_n_n none (k0_pay4 v6) (k0_pay5 v19)
            (constant S8192x64 .f32 0x00000000#32) (ix2 p q)))
        (broadcastTo S8192x64 (shapeCast S1x64 v35 shapeCasts_S1x64_S1x64) broadcasts_S1x64_S8192x64 (ix2 p q))
      = (((∑ k : Fin 64, v0 (ix2 p k) * v15 (ix2 k q)) + ∑ k : Fin 64, v3 (ix2 p k) * v17 (ix2 k q))
          + ∑ k : Fin 32, v6 (ix2 p k) * v19 (ix2 k q)) + v35 (ix2 (0 : Fin 1) q) := by
  unfold k0_pay7 k0_pay2 k0_pay3 k0_pay4 k0_pay5
  simp only [addf]
  rw [mm64, mm64, mm32, bias_at]
  simp only [truncf, Ideal.truncf_def, shapeCast_self, Ideal.addf_def]

/-- Entry (p, q) of what the body leaves in its output block. -/
theorem block_msg (x0 x1 : Vec Ideal S8192x64 .f32) (x2 : Vec Ideal S8192x32 .f32) (x3 : Vec Ideal S160x64 .f32)
    (x4 : Vec Ideal S1x64 .f32) (x5 : Vec Ideal S160x64 .f32) (x6 : Vec Ideal S1x64 .f32) (p : Fin 8192) (q : Fin 64) :
    out0_7 (F := Ideal) x0 x1 x2 x3 x4 x5 x6 (ix2 p q) = msgEntry (n := 8192) x0 x1 x2 x3 x4 x5 x6 p q := by
  unfold out0_7
  rw [View.canon_unit_zero hz]
  simp only [View.ld_unit_zero (S := S8192x64) hz, View.ld_unit_zero (S := S8192x32) hz, View.ld_unit_zero (S := S1x64) hz]
  unfold k0_pay1
  simp only [mulf, logistic, select, cmpf, subf, addf, maximumf, log1p, exp, absf, broadcast]
  rw [kernel_gate, lin_f, lin_s]
  simp only [View.ld, idx_w0, idx_w1, idx_w2]
  rfl

end Cert.KernelIdeal.Block0

end
-- ==== Proof.Net.lean ====
/-
  The network both programs compute, as ONE composition of whole-array operations with the per-edge message function
  left as a parameter.

  A layer: the edge list's two rows are the source and destination node of each edge; a negative node number is wrapped
  by adding the node count; the destination's and the source's feature rows are gathered; the message function maps
  those two row arrays, the edge features, two weight matrices and two bias rows to one message row per edge; the
  messages are summed into their destination node's row, and the node features are added (a residual). Two layers, then
  the node rows are summed per graph, multiplied by the output column and shifted by the output bias.

  The two programs differ ONLY in the message function: the reference concatenates the three feature rows and applies
  each linear map as one product; the kernel pads the rows to a multiple of its block, runs its launch, and cuts the
  padding off again. Every other operation is the same text in both, so it is carried here as one function and never
  opened.
-/
import proofs.«146160_j84353157693983_1_alg».proof.ReferenceIdeal
import proofs.«146160_j84353157693983_1_alg».proof.Proof.Gen.ReferenceIdeal
import Idealize.ShloMosaic.PureOps.Ideal

noncomputable section

namespace Cert.Net

open Cert.ReferenceIdeal Cert.ReferenceIdeal.Gen Idealize.ShloMosaic

abbrev Nodes := FVec Ideal S50000x64 .f32
abbrev Edges := IVec S2x800000 32
abbrev EdgeIds := IVec S800000 32
abbrev EdgeRows := FVec Ideal S800000x64 .f32
abbrev EdgeFeat := FVec Ideal S800000x32 .f32
abbrev Weights := FVec Ideal S160x64 .f32
abbrev Bias := FVec Ideal S64 .f32

/-- A per-edge message function: destination rows, source rows, edge features, the two maps' weights and biases. -/
abbrev MsgFn := EdgeRows → EdgeRows → EdgeFeat → Weights → Bias → Weights → Bias → EdgeRows

/-- Each edge's source node: row 0 of the edge list. -/
def srcOf (ei : Edges) : EdgeIds :=
  shapeCast S800000 (extractStridedSlice S1x800000 ![0, 0] ei slices_S2x800000_S1x800000_0_0) shapeCasts_S1x800000_S800000

/-- Each edge's destination node: row 1 of the edge list. -/
def dstOf (ei : Edges) : EdgeIds :=
  shapeCast S800000 (extractStridedSlice S1x800000 ![1, 0] ei slices_S2x800000_S1x800000_1_0) shapeCasts_S1x800000_S800000

/-- Node numbers as a gather's index column, a negative number wrapped by adding the node count. -/
def wrapIdx (i : EdgeIds) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- The feature rows of the nodes an index vector names. -/
def rowsOf (x : Nodes) (i : EdgeIds) : EdgeRows :=
  Host.gather gather_S50000x64_S800000x1_S800000x64_1_0_n_n_0_1_164 x (wrapIdx i)

/-- One layer: the nodes' features plus, per node, the sum of the messages of the edges that end there. -/
def layer (msg : MsgFn) (x : Nodes) (ei : Edges) (ea : EdgeFeat) (Wf : Weights) (bf : Bias) (Ws : Weights) (bs : Bias) : Nodes :=
  addf x (Host.scatterAdd scatter_S50000x64_S800000x1_S800000x64_1_0_0_1
    (broadcastInDim S50000x64 ![] bcast_S_S50000x64 (constant S_ .f32 0x00000000#32))
    (broadcastInDim S800000x1 ![0] bcast_S800000_S800000x1_0 (dstOf ei))
    (msg (rowsOf x (dstOf ei)) (rowsOf x (srcOf ei)) ea Wf bf Ws bs))

/-- The per-graph sum of node rows, times the output column, plus the output bias. -/
def pool (h : Nodes) (batch : IVec S50000 32) (Wo : FVec Ideal S64x1 .f32) (bo : FVec Ideal S1 .f32) : FVec Ideal S512x1 .f32 :=
  addf (Host.dotGeneral dot_S512x64_S64x1_S512x1_1_0_0_1_n_n none
      (Host.scatterAdd scatter_S512x64_S50000x1_S50000x64_1_0_0_1
        (broadcastInDim S512x64 ![] bcast_S_S512x64 (constant S_ .f32 0x00000000#32))
        (broadcastInDim S50000x1 ![0] bcast_S50000_S50000x1_0 batch) h)
      Wo)
    (broadcastInDim S512x1 ![0, 1] bcast_S1x1_S512x1_0_1 (broadcastInDim S1x1 ![1] bcast_S1_S1x1_1 bo))

/-- Two layers, then the pooling. -/
def net (msg : MsgFn) (x : Nodes) (ei : Edges) (ea : EdgeFeat) (batch : IVec S50000 32)
    (Wf1 : Weights) (bf1 : Bias) (Ws1 : Weights) (bs1 : Bias) (Wf2 : Weights) (bf2 : Bias) (Ws2 : Weights) (bs2 : Bias)
    (Wo : FVec Ideal S64x1 .f32) (bo : FVec Ideal S1 .f32) : FVec Ideal S512x1 .f32 :=
  pool (layer msg (layer msg x ei ea Wf1 bf1 Ws1 bs1) ei ea Wf2 bf2 Ws2 bs2) batch Wo bo

/-- softplus of an array, as the reference spells it. -/
def softplusRef (z : EdgeRows) : EdgeRows :=
  select (cmpf .une (subf z (broadcastInDim S800000x64 ![] bcast_S_S800000x64 (constant S_ .f32 0x00000000#32)))
      (subf z (broadcastInDim S800000x64 ![] bcast_S_S800000x64 (constant S_ .f32 0x00000000#32))))
    (addf z (broadcastInDim S800000x64 ![] bcast_S_S800000x64 (constant S_ .f32 0x00000000#32)))
    (addf (maximumf z (broadcastInDim S800000x64 ![] bcast_S_S800000x64 (constant S_ .f32 0x00000000#32)))
      (Host.log1p (Host.exp (Host.negf (Host.absf
        (subf z (broadcastInDim S800000x64 ![] bcast_S_S800000x64 (constant S_ .f32 0x00000000#32))))))))

/-- The affine map of the concatenated rows, as the reference spells it: one product, then the bias on every row. -/
def linRef (xd xs : EdgeRows) (ea : EdgeFeat) (W : Weights) (b : Bias) : EdgeRows :=
  addf (Host.dotGeneral dot_S800000x160_S160x64_S800000x64_1_0_0_1_n_n none
      (concatenate S800000x160 1 [⟨S800000x64, xd⟩, ⟨S800000x64, xs⟩, ⟨S800000x32, ea⟩]
        concatenates_S800000x64_S800000x64_S800000x32_S800000x160_d1) W)
    (broadcastInDim S800000x64 ![0, 1] bcast_S1x64_S800000x64_0_1 (broadcastInDim S1x64 ![1] bcast_S64_S1x64_1 b))

/-- The reference's message function: sigmoid of the first map, written 1 / (1 + e^(−z)), times softplus of the second. -/
def msgRef : MsgFn := fun xd xs ea Wf bf Ws bs =>
  mulf (Host.divf (broadcastInDim S800000x64 ![] bcast_S_S800000x64 (constant S_ .f32 0x3F800000#32))
      (addf (broadcastInDim S800000x64 ![] bcast_S_S800000x64 (constant S_ .f32 0x3F800000#32))
        (Host.exp (Host.negf (linRef xd xs ea Wf bf)))))
    (softplusRef (linRef xd xs ea Ws bs))

end Cert.Net

end
-- ==== Proof.KerMsg.lean ====
/-
  The kernel program's message function: how its host code wraps one launch of the message kernel.

  The 800000 edge rows are padded with 2816 rows of zeros to 802816 = 98 · 8192, so that whole blocks of 8192 rows tile
  them; the two bias vectors are viewed as 1 x 64 rows; the launch leaves the padded message array of
  Proof/PadMsg.lean; the first 800000 rows are cut out again.
-/
import proofs.«146160_j84353157693983_1_alg».proof.KernelIdeal
import proofs.«146160_j84353157693983_1_alg».proof.Proof.Gen.KernelIdeal
import proofs.«146160_j84353157693983_1_alg».proof.Proof.Net
import Idealize.ShloMosaic.PureOps.Ideal
import proofs.«146160_j84353157693983_1_alg».proof.Proof.PadMsg

noncomputable section

namespace Cert.KNet

open Cert.KernelIdeal Cert.KernelIdeal.Gen Idealize.ShloMosaic

/-- The padding value: the integer zero converted to a float. -/
def padValue : FVec Ideal S_ .f32 := sitofp .f32 (constantI S_ 32 0#32)

/-- 64-column edge rows padded to the launch's row count. -/
def padRows64 (x : FVec Ideal S800000x64 .f32) : FVec Ideal S802816x64 .f32 :=
  pad S802816x64 ![0, 0] ![2816, 0] ![0, 0] x padValue pads_S800000x64_S802816x64_028160_000 h_S_

/-- 32-column edge rows padded to the launch's row count. -/
def padRows32 (x : FVec Ideal S800000x32 .f32) : FVec Ideal S802816x32 .f32 :=
  pad S802816x32 ![0, 0] ![2816, 0] ![0, 0] x padValue pads_S800000x32_S802816x32_028160_000 h_S_

/-- A bias vector as one row. -/
def biasRow (b : FVec Ideal S64 .f32) : FVec Ideal S1x64 .f32 :=
  shapeCast S1x64 b shapeCasts_S64_S1x64

/-- What a launch leaves in its padded output array, from its seven operand arrays. -/
def launch (x0 x1 : FVec Ideal S802816x64 .f32) (x2 : FVec Ideal S802816x32 .f32)
    (x3 : FVec Ideal S160x64 .f32) (x4 : FVec Ideal S1x64 .f32)
    (x5 : FVec Ideal S160x64 .f32) (x6 : FVec Ideal S1x64 .f32) :
    FVec Ideal S802816x64 .f32 :=
  Cert.Msg.msgArray (n := 802816) x0 x1 x2 x3 x4 x5 x6

/-- The first 800000 rows of a padded array. -/
def cutRows (y : FVec Ideal S802816x64 .f32) : FVec Ideal S800000x64 .f32 :=
  extractStridedSlice S800000x64 ![0, 0] y slices_S802816x64_S800000x64_0_0

/-- The kernel program's message function. -/
def msgKer : Cert.Net.MsgFn := fun xd xs ea Wf bf Ws bs =>
  cutRows (launch (padRows64 xd) (padRows64 xs) (padRows32 ea) Wf (biasRow bf) Ws (biasRow bs))

end Cert.KNet

end
-- ==== Proof.Region0.lean ====
/-
  What the first launch of the message kernel leaves in its output array.

  The launch has 98 points; point t takes rows 8192·t … 8192·t + 8191 of the three row-blocked operands, the whole of
  the four small operands, and writes rows 8192·t … of the output. Row r of the padded output therefore depends on row
  r of the row-blocked operands only: block t of the message array of Proof/PadMsg.lean IS what point t writes back, and
  the 98 blocks tile the 802816 rows (the point that covers row r is r / 8192), so the array ends as that message array.
  The steps: the index maps' values decided once over the grid, each block read as rows of its array, the written-back
  block, the cover.
-/
import proofs.«146160_j84353157693983_1_alg».proof.Proof.Block0
import proofs.«146160_j84353157693983_1_alg».proof.Proof.KerMsg

set_option maxRecDepth 16384

noncomputable section

namespace Cert.KernelIdeal.Region0

open Cert.KernelIdeal Cert.KernelIdeal.Gen Idealize.ShloMosaic Idealize.ShloMosaic.TcCoe Idealize.ShloMosaic.ValueIdx Cert.Msg
open Idealize.SL.Sem
open Idealize.ShloMosaic.Pipeline (Dat Cfg Window)

variable (V : (c : Dev nD) → (b : Ref sig .tc) → Buf (Elt Ideal) ((c : Thread nD τ).loc b))

/-- The printed index maps, decided over the grid: the row-blocked windows and the output sit at block (t, 0), the four
    small operands at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The array the launch leaves, from the region's entry contents. -/
def G (c : Dev nD) : S802816x64.Idx → Elt Ideal .f32 :=
  Cert.KNet.launch (V c main_v18) (V c main_v19) (V c main_v20) (V c main_arg4) (V c main_v21) (V c main_arg6) (V c main_v22)

/-- What a point writes back at a block entry y, from blocks that are rows 8192·t … of the row-blocked operand arrays:
    the launch's array at the array entry i the block entry sits at. -/
theorem point_msg (b0 b1 : Vec Ideal S8192x64 .f32) (b2 : Vec Ideal S8192x32 .f32) (b3 : Vec Ideal S160x64 .f32)
    (b4 : Vec Ideal S1x64 .f32) (b5 : Vec Ideal S160x64 .f32) (b6 : Vec Ideal S1x64 .f32)
    (A0 A1 : S802816x64.Idx → Elt Ideal .f32) (A2 : S802816x32.Idx → Elt Ideal .f32)
    (t : Nat) (ht : t < 98)
    (h0 : ∀ (r : Fin 8192) (k : Fin 64), b0 (ix2 r k) = A0 (ix2 (⟨t * 8192 + r.val, by omega⟩ : Fin 802816) k))
    (h1 : ∀ (r : Fin 8192) (k : Fin 64), b1 (ix2 r k) = A1 (ix2 (⟨t * 8192 + r.val, by omega⟩ : Fin 802816) k))
    (h2 : ∀ (r : Fin 8192) (k : Fin 32), b2 (ix2 r k) = A2 (ix2 (⟨t * 8192 + r.val, by omega⟩ : Fin 802816) k))
    (y : S8192x64.Idx) (i : S802816x64.Idx) (hi0 : (i 0).val = t * 8192 + (y 0).val) (hi1 : (i 1).val = (y 1).val) :
    out0_7 (F := Ideal) b0 b1 b2 b3 b4 b5 b6 y = Cert.KNet.launch A0 A1 A2 b3 b4 b5 b6 i := by
  obtain ⟨p, q, rfl⟩ : ∃ (p : Fin 8192) (q : Fin 64), y = ix2 p q := ⟨y 0, y 1, eq_ix2 y⟩
  have hi : i = ix2 (⟨t * 8192 + p.val, by omega⟩ : Fin 802816) q := by
    funext a
    apply Fin.ext
    match a with
    | ⟨0, _⟩ => exact hi0
    | ⟨1, _⟩ => exact hi1
  rw [hi, Block0.block_msg]
  show _ = msgEntry (n := 802816) A0 A1 A2 b3 b4 b5 b6 (⟨t * 8192 + p.val, by omega⟩ : Fin 802816) q
  unfold msgEntry
  simp only [h0, h1, h2]

/-- A row-blocked window's block at point t is rows 8192·t … of its array. -/
theorem read0 (c : Dev nD) (t : Fin cfg0.N) (ht : t.val < 98) (r : Fin 8192) (k : Fin 64) :
    (iblk0 V c 0 t : S8192x64.Idx → Elt Ideal .f32) (ix2 r k)
      = V c main_v18 (ix2 (⟨t.val * 8192 + r.val, by omega⟩ : Fin 802816) k) := by
  show V c main_v18 (((cfg0.win 0).blk t).view.emb (ix2 r k)) = _
  refine congrArg (V c main_v18) (funext fun a => Fin.ext ?_)
  obtain ⟨e0, e1, -⟩ := idx_facts t
  match a with
  | ⟨0, _⟩ => show win0_0.index t (0 : Fin 2) * 8192 + 1 * r.val = t.val * 8192 + r.val; rw [e0]; omega
  | ⟨1, _⟩ => show win0_0.index t (1 : Fin 2) * 64 + 1 * k.val = k.val; rw [e1]; omega

theorem read1 (c : Dev nD) (t : Fin cfg0.N) (ht : t.val < 98) (r : Fin 8192) (k : Fin 64) :
    (iblk0 V c 1 t : S8192x64.Idx → Elt Ideal .f32) (ix2 r k)
      = V c main_v19 (ix2 (⟨t.val * 8192 + r.val, by omega⟩ : Fin 802816) k) := by
  show V c main_v19 (((cfg0.win 1).blk t).view.emb (ix2 r k)) = _
  refine congrArg (V c main_v19) (funext fun a => Fin.ext ?_)
  obtain ⟨-, -, e0, e1, -⟩ := idx_facts t
  match a with
  | ⟨0, _⟩ => show win0_1.index t (0 : Fin 2) * 8192 + 1 * r.val = t.val * 8192 + r.val; rw [e0]; omega
  | ⟨1, _⟩ => show win0_1.index t (1 : Fin 2) * 64 + 1 * k.val = k.val; rw [e1]; omega

theorem read2 (c : Dev nD) (t : Fin cfg0.N) (ht : t.val < 98) (r : Fin 8192) (k : Fin 32) :
    (iblk0 V c 2 t : S8192x32.Idx → Elt Ideal .f32) (ix2 r k)
      = V c main_v20 (ix2 (⟨t.val * 8192 + r.val, by omega⟩ : Fin 802816) k) := by
  show V c main_v20 (((cfg0.win 2).blk t).view.emb (ix2 r k)) = _
  refine congrArg (V c main_v20) (funext fun a => Fin.ext ?_)
  obtain ⟨-, -, -, -, e0, e1, -⟩ := idx_facts t
  match a with
  | ⟨0, _⟩ => show win0_2.index t (0 : Fin 2) * 8192 + 1 * r.val = t.val * 8192 + r.val; rw [e0]; omega
  | ⟨1, _⟩ => show win0_2.index t (1 : Fin 2) * 32 + 1 * k.val = k.val; rw [e1]; omega

/-- A small operand's one block is its whole array. -/
theorem read3 (c : Dev nD) (t : Fin cfg0.N) : (iblk0 V c 3 t : S160x64.Idx → Elt Ideal .f32) = V c main_arg4 := by
  funext y
  show V c main_arg4 (((cfg0.win 3).blk t).view.emb y) = _
  refine congrArg (V c main_arg4) (funext fun a => Fin.ext ?_)
  obtain ⟨-, -, -, -, -, -, e0, e1, -⟩ := idx_facts t
  match a with
  | ⟨0, _⟩ => show win0_3.index t (0 : Fin 2) * 160 + 1 * (y 0).val = (y 0).val; rw [e0]; omega
  | ⟨1, _⟩ => show win0_3.index t (1 : Fin 2) * 64 + 1 * (y 1).val = (y 1).val; rw [e1]; omega

theorem read4 (c : Dev nD) (t : Fin cfg0.N) : (iblk0 V c 4 t : S1x64.Idx → Elt Ideal .f32) = V c main_v21 := by
  funext y
  show V c main_v21 (((cfg0.win 4).blk t).view.emb y) = _
  refine congrArg (V c main_v21) (funext fun a => Fin.ext ?_)
  obtain ⟨-, -, -, -, -, -, -, -, e0, e1, -⟩ := idx_facts t
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

theorem read5 (c : Dev nD) (t : Fin cfg0.N) : (iblk0 V c 5 t : S160x64.Idx → Elt Ideal .f32) = V c main_arg6 := by
  funext y
  show V c main_arg6 (((cfg0.win 5).blk t).view.emb y) = _
  refine congrArg (V c main_arg6) (funext fun a => Fin.ext ?_)
  obtain ⟨-, -, -, -, -, -, -, -, -, -, e0, e1, -⟩ := idx_facts t
  match a with
  | ⟨0, _⟩ => show win0_5.index t (0 : Fin 2) * 160 + 1 * (y 0).val = (y 0).val; rw [e0]; omega
  | ⟨1, _⟩ => show win0_5.index t (1 : Fin 2) * 64 + 1 * (y 1).val = (y 1).val; rw [e1]; omega

theorem read6 (c : Dev nD) (t : Fin cfg0.N) : (iblk0 V c 6 t : S1x64.Idx → Elt Ideal .f32) = V c main_v22 := by
  funext y
  show V c main_v22 (((cfg0.win 6).blk t).view.emb y) = _
  refine congrArg (V c main_v22) (funext fun a => Fin.ext ?_)
  obtain ⟨-, -, -, -, -, -, -, -, -, -, -, -, e0, e1, -⟩ := idx_facts t
  match a with
  | ⟨0, _⟩ => show win0_6.index t (0 : Fin 2) * 1 + 1 * (y 0).val = (y 0).val; rw [e0]; omega
  | ⟨1, _⟩ => show win0_6.index t (1 : Fin 2) * 64 + 1 * (y 1).val = (y 1).val; rw [e1]; omega

/-- WHAT POINT t WRITES BACK is block t of the launch's array. -/
theorem flushed_eq (c : Dev nD) (t : Fin cfg0.N) :
    (dat0 V c).flushed 7 t = ((cfg0.win 7).blk t).view.read (Elt Ideal) (G V c) := by
  have ht : t.val < 98 := lt_of_lt_of_eq t.isLt N_0
  show (cfg0.win 7).cut (grid0.coords t) ((dat0 V c).after 7 t) = _
  rw [after0_7]
  funext j
  show out0_7 (F := Ideal) (iblk0 V c 0 t) (iblk0 V c 1 t) (iblk0 V c 2 t) (iblk0 V c 3 t) (iblk0 V c 4 t) (iblk0 V c 5 t)
      (iblk0 V c 6 t) j = G V c (((cfg0.win 7).blk t).view.emb j)
  obtain ⟨-, -, -, -, -, -, -, -, -, -, -, -, -, -, e0, e1⟩ := idx_facts t
  rw [read3 V c t, read4 V c t, read5 V c t, read6 V c t]
  exact point_msg (iblk0 V c 0 t) (iblk0 V c 1 t) (iblk0 V c 2 t) (V c main_arg4) (V c main_v21) (V c main_arg6) (V c main_v22)
    (V c main_v18) (V c main_v19) (V c main_v20) t.val ht (fun r k => read0 V c t ht r k) (fun r k => read1 V c t ht r k)
    (fun r k => read2 V c t ht r k) j (((cfg0.win 7).blk t).view.emb j)
    (by show win0_7.index t (0 : Fin 2) * 8192 + 1 * (j 0).val = t.val * 8192 + (j 0).val; rw [e0]; omega)
    (by show win0_7.index t (1 : Fin 2) * 64 + 1 * (j 1).val = (j 1).val; rw [e1]; omega)

/-- An index of the output array is in point t's block iff each coordinate is in the block's range on its axis. -/
theorem mem_blk (t : Fin cfg0.N) (i : S802816x64.Idx) :
    i ∈ ((cfg0.win 7).blk t).view.set ↔ ∀ a : Fin 2, win0_7.index t a * S8192x64.size a ≤ (i a).val ∧ (i a).val < win0_7.index t a * S8192x64.size a + S8192x64.size a := by
  show i ∈ ((View.whole main_v23).slice (win0_7.rect t)).set ↔ _
  rw [View.set_slice_whole, Rect.mem_set_unit]
  exact Iff.rfl

/-- Every row is in some point's block: the point that covers row r is r / 8192. -/
theorem cover (i : S802816x64.Idx) : ∃ t : Fin cfg0.N, (cfg0.win 7).flush t = true ∧ i ∈ ((cfg0.win 7).blk t).view.set := by
  have hi0 : (i 0).val < 802816 := (i 0).isLt
  have hi1 : (i 1).val < 64 := (i 1).isLt
  have hN : (i 0).val / 8192 < cfg0.N := by rw [show cfg0.N = 98 from N_0]; omega
  refine ⟨⟨(i 0).val / 8192, hN⟩, flush0_7 _, ?_⟩
  rw [mem_blk]
  obtain ⟨-, -, -, -, -, -, -, -, -, -, -, -, -, -, e0, e1⟩ := idx_facts ⟨(i 0).val / 8192, hN⟩
  intro a
  match a with
  | ⟨0, _⟩ =>
    show win0_7.index ⟨(i 0).val / 8192, hN⟩ (0 : Fin 2) * 8192 ≤ (i 0).val ∧ (i 0).val < win0_7.index ⟨(i 0).val / 8192, hN⟩ (0 : Fin 2) * 8192 + 8192
    rw [e0]; show (i 0).val / 8192 * 8192 ≤ (i 0).val ∧ (i 0).val < (i 0).val / 8192 * 8192 + 8192; omega
  | ⟨1, _⟩ =>
    show win0_7.index ⟨(i 0).val / 8192, hN⟩ (1 : Fin 2) * 64 ≤ (i 1).val ∧ (i 1).val < win0_7.index ⟨(i 0).val / 8192, hN⟩ (1 : Fin 2) * 64 + 64
    rw [e1]; omega

/-- THE OUTPUT ARRAY after the launch. -/
theorem final (c : Dev nD) : (dat0 V c).arrAt 7 cfg0.N = G V c :=
  (dat0 V c).arrAt_eq_of_cover 7 (G V c) (fun t _ => flushed_eq V c t) (cover)

end Cert.KernelIdeal.Region0

end
-- ==== Proof.Block1.lean ====
/-
  One block of the message kernel's second launch, entry by entry (the second launch's body is the first's text again).

  The body loads its whole blocks of destination, source and edge feature rows, three row stretches of each weight
  matrix (rows 0-63, 64-127, 128-159) and the two bias rows; forms each affine map as three matrix products into zero
  accumulators added left to right plus the bias row repeated down the block; and stores sigmoid(first) · softplus(second)
  over the whole output block. Roundings to a narrower float format are the identity on the extended reals. So entry
  (p, q) of the stored block is the message entry of Proof/PadMsg.lean at the blocks' row p and the weights' column q.
-/
import proofs.«146160_j84353157693983_1_alg».proof.Proof.Gen.KernelIdeal.Frame
import proofs.«146160_j84353157693983_1_alg».proof.Proof.PadMsg
import proofs.«146160_j84353157693983_1_alg».proof.Proof.LibPlainProduct
import Idealize.ShloMosaic.Lib.Pipeline.Value
import Idealize.ShloMosaic.Lib.ValueIdx

noncomputable section

namespace Cert.KernelIdeal.Block1

open Cert.KernelIdeal Cert.KernelIdeal.Gen Idealize.ShloMosaic Idealize.ShloMosaic.ValueIdx Cert.Msg

theorem hz : (![0, 0] : Fin 2 → Nat) = fun _ => 0 := funext fun a => by fin_cases a <;> rfl

/-- A block of 64-column rows times a 64 x 64 matrix, into zeros, at (p, q). -/
theorem mm64 {φ₁ φ₂ : FTy} (x : FVec Ideal S8192x64 φ₁) (w : FVec Ideal S64x64 φ₂) (p : Fin 8192) (q : Fin 64) :
    matmul dot_S8192x64_S64x64_S8192x64_1_0_0_1_n_n none x w (constant S8192x64 .f32 0x00000000#32) (ix2 p q)
      = ∑ k : Fin 64, x (ix2 p k) * w (ix2 k q) :=
  PlainProduct.matmul_zero_at 8192 64 64 x w p q

/-- A block of 32-column rows times a 32 x 64 matrix, into zeros, at (p, q). -/
theorem mm32 {φ₁ φ₂ : FTy} (x : FVec Ideal S8192x32 φ₁) (w : FVec Ideal S32x64 φ₂) (p : Fin 8192) (q : Fin 64) :
    matmul dot_S8192x32_S32x64_S8192x64_1_0_0_1_n_n none x w (constant S8192x64 .f32 0x00000000#32) (ix2 p q)
      = ∑ k : Fin 32, x (ix2 p k) * w (ix2 k q) :=
  PlainProduct.matmul_zero_at 8192 32 64 x w p q

/-- The bias row, repeated down the block, read at (p, q). -/
theorem bias_at (b : Vec Ideal S1x64 .f32) (p : Fin 8192) (q : Fin 64) :
    broadcastTo S8192x64 (shapeCast S1x64 b shapeCasts_S1x64_S1x64) broadcasts_S1x64_S8192x64 (ix2 p q)
      = b (ix2 (0 : Fin 1) q) := by
  rw [shapeCast_self]
  exact broadcastTo_apply b broadcasts_S1x64_S8192x64 (ix2 p q) (ix2 (0 : Fin 1) q) (fun a => by
    match a with
    | ⟨0, _⟩ => rfl
    | ⟨1, _⟩ => rfl)

/-- Rows 0-63 of a weight matrix: the stretch's entry (k, q) is the matrix's (k, q). -/
theorem idx_w0 (k : Fin 64) (q : Fin 64) : r1_2.idx (ix2 k q) = ix2 (⟨k.val, by omega⟩ : Fin 160) q := by
  funext a
  apply Fin.ext
  match a with
  | ⟨0, _⟩ => show 0 + 1 * k.val = k.val; omega
  | ⟨1, _⟩ => show 0 + 1 * q.val = q.val; omega

/-- Rows 64-127: the stretch's entry (k, q) is the matrix's (64 + k, q). -/
theorem idx_w1 (k : Fin 64) (q : Fin 64) : r1_3.idx (ix2 k q) = ix2 (⟨64 + k.val, by omega⟩ : Fin 160) q := by
  funext a
  apply Fin.ext
  match a with
  | ⟨0, _⟩ => show 64 + 1 * k.val = 64 + k.val; omega
  | ⟨1, _⟩ => show 0 + 1 * q.val = q.val; omega

/-- Rows 128-159: the stretch's entry (k, q) is the matrix's (128 + k, q). -/
theorem idx_w2 (k : Fin 32) (q : Fin 64) : r1_4.idx (ix2 k q) = ix2 (⟨64 + 64 + k.val, by omega⟩ : Fin 160) q := by
  funext a
  apply Fin.ext
  match a with
  | ⟨0, _⟩ => show 128 + 1 * k.val = 64 + 64 + k.val; omega
  | ⟨1, _⟩ => show 0 + 1 * q.val = q.val; omega

/-- The first affine map at (p, q): three dot products and the bias. -/
theorem lin_f (v0 v3 : Vec Ideal S8192x64 .f32) (v6 : Vec Ideal S8192x32 .f32) (v9 v11 : Vec Ideal S64x64 .f32)
    (v13 : Vec Ideal S32x64 .f32) (v26 : Vec Ideal S1x64 .f32) (p : Fin 8192) (q : Fin 64) :
    k1_pay6 v0 v3 v6 v9 v11 v13 v26 (ix2 p q)
      = (((∑ k : Fin 64, v0 (ix2 p k) * v9 (ix2 k q)) + ∑ k : Fin 64, v3 (ix2 p k) * v11 (ix2 k q))
          + ∑ k : Fin 32, v6 (ix2 p k) * v13 (ix2 k q)) + v26 (ix2 (0 : Fin 1) q) := by
  unfold k1_pay6 k1_pay2 k1_pay3 k1_pay4
  simp only [addf]
  rw [mm64, mm64, mm32, bias_at]
  simp only [truncf, Ideal.truncf_def, shapeCast_self, Ideal.addf_def]

/-- The second affine map at (p, q), as the body assembles it from its two parts. -/
theorem lin_s (v0 v3 : Vec Ideal S8192x64 .f32) (v6 : Vec Ideal S8192x32 .f32) (v15 v17 : Vec Ideal S64x64 .f32)
    (v19 : Vec Ideal S32x64 .f32) (v35 : Vec Ideal S1x64 .f32) (p : Fin 8192) (q : Fin 64) :
    FloatOps.addf
        (FloatOps.addf (k1_pay7 v0 v3 v15 v17 (ix2 p q))
          (matmul dot_S8192x32_S32x64_S8192x64_1_0_0_1_n_n none (k1_pay4 v6) (k1_pay5 v19)
            (constant S8192x64 .f32 0x00000000#32) (ix2 p q)))
        (broadcastTo S8192x64 (shapeCast S1x64 v35 shapeCasts_S1x64_S1x64) broadcasts_S1x64_S8192x64 (ix2 p q))
      = (((∑ k : Fin 64, v0 (ix2 p k) * v15 (ix2 k q)) + ∑ k : Fin 64, v3 (ix2 p k) * v17 (ix2 k q))
          + ∑ k : Fin 32, v6 (ix2 p k) * v19 (ix2 k q)) + v35 (ix2 (0 : Fin 1) q) := by
  unfold k1_pay7 k1_pay2 k1_pay3 k1_pay4 k1_pay5
  simp only [addf]
  rw [mm64, mm64, mm32, bias_at]
  simp only [truncf, Ideal.truncf_def, shapeCast_self, Ideal.addf_def]

/-- Entry (p, q) of what the body leaves in its output block. -/
theorem block_msg (x0 x1 : Vec Ideal S8192x64 .f32) (x2 : Vec Ideal S8192x32 .f32) (x3 : Vec Ideal S160x64 .f32)
    (x4 : Vec Ideal S1x64 .f32) (x5 : Vec Ideal S160x64 .f32) (x6 : Vec Ideal S1x64 .f32) (p : Fin 8192) (q : Fin 64) :
    out1_7 (F := Ideal) x0 x1 x2 x3 x4 x5 x6 (ix2 p q) = msgEntry (n := 8192) x0 x1 x2 x3 x4 x5 x6 p q := by
  unfold out1_7
  rw [View.canon_unit_zero hz]
  simp only [View.ld_unit_zero (S := S8192x64) hz, View.ld_unit_zero (S := S8192x32) hz, View.ld_unit_zero (S := S1x64) hz]
  unfold k1_pay1
  simp only [mulf, logistic, select, cmpf, subf, addf, maximumf, log1p, exp, absf, broadcast]
  rw [kernel_gate, lin_f, lin_s]
  simp only [View.ld, idx_w0, idx_w1, idx_w2]
  rfl

end Cert.KernelIdeal.Block1

end
-- ==== Proof.Region1.lean ====
/-
  What the second launch of the message kernel leaves in its output array.

  The launch has 98 points; point t takes rows 8192·t … 8192·t + 8191 of the three row-blocked operands, the whole of
  the four small operands, and writes rows 8192·t … of the output. Row r of the padded output therefore depends on row
  r of the row-blocked operands only: block t of the message array of Proof/PadMsg.lean IS what point t writes back, and
  the 98 blocks tile the 802816 rows (the point that covers row r is r / 8192), so the array ends as that message array.
  The steps: the index maps' values decided once over the grid, each block read as rows of its array, the written-back
  block, the cover.
-/
import proofs.«146160_j84353157693983_1_alg».proof.Proof.Block1
import proofs.«146160_j84353157693983_1_alg».proof.Proof.KerMsg

set_option maxRecDepth 16384

noncomputable section

namespace Cert.KernelIdeal.Region1

open Cert.KernelIdeal Cert.KernelIdeal.Gen Idealize.ShloMosaic Idealize.ShloMosaic.TcCoe Idealize.ShloMosaic.ValueIdx Cert.Msg
open Idealize.SL.Sem
open Idealize.ShloMosaic.Pipeline (Dat Cfg Window)

variable (V : (c : Dev nD) → (b : Ref sig .tc) → Buf (Elt Ideal) ((c : Thread nD τ).loc b))

/-- The printed index maps, decided over the grid: the row-blocked windows and the output sit at block (t, 0), the four
    small operands at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The array the launch leaves, from the region's entry contents. -/
def G (c : Dev nD) : S802816x64.Idx → Elt Ideal .f32 :=
  Cert.KNet.launch (V c main_v43) (V c main_v44) (V c main_v45) (V c main_arg8) (V c main_v46) (V c main_arg10) (V c main_v47)

/-- What a point writes back at a block entry y, from blocks that are rows 8192·t … of the row-blocked operand arrays:
    the launch's array at the array entry i the block entry sits at. -/
theorem point_msg (b0 b1 : Vec Ideal S8192x64 .f32) (b2 : Vec Ideal S8192x32 .f32) (b3 : Vec Ideal S160x64 .f32)
    (b4 : Vec Ideal S1x64 .f32) (b5 : Vec Ideal S160x64 .f32) (b6 : Vec Ideal S1x64 .f32)
    (A0 A1 : S802816x64.Idx → Elt Ideal .f32) (A2 : S802816x32.Idx → Elt Ideal .f32)
    (t : Nat) (ht : t < 98)
    (h0 : ∀ (r : Fin 8192) (k : Fin 64), b0 (ix2 r k) = A0 (ix2 (⟨t * 8192 + r.val, by omega⟩ : Fin 802816) k))
    (h1 : ∀ (r : Fin 8192) (k : Fin 64), b1 (ix2 r k) = A1 (ix2 (⟨t * 8192 + r.val, by omega⟩ : Fin 802816) k))
    (h2 : ∀ (r : Fin 8192) (k : Fin 32), b2 (ix2 r k) = A2 (ix2 (⟨t * 8192 + r.val, by omega⟩ : Fin 802816) k))
    (y : S8192x64.Idx) (i : S802816x64.Idx) (hi0 : (i 0).val = t * 8192 + (y 0).val) (hi1 : (i 1).val = (y 1).val) :
    out1_7 (F := Ideal) b0 b1 b2 b3 b4 b5 b6 y = Cert.KNet.launch A0 A1 A2 b3 b4 b5 b6 i := by
  obtain ⟨p, q, rfl⟩ : ∃ (p : Fin 8192) (q : Fin 64), y = ix2 p q := ⟨y 0, y 1, eq_ix2 y⟩
  have hi : i = ix2 (⟨t * 8192 + p.val, by omega⟩ : Fin 802816) q := by
    funext a
    apply Fin.ext
    match a with
    | ⟨0, _⟩ => exact hi0
    | ⟨1, _⟩ => exact hi1
  rw [hi, Block1.block_msg]
  show _ = msgEntry (n := 802816) A0 A1 A2 b3 b4 b5 b6 (⟨t * 8192 + p.val, by omega⟩ : Fin 802816) q
  unfold msgEntry
  simp only [h0, h1, h2]

/-- A row-blocked window's block at point t is rows 8192·t … of its array. -/
theorem read0 (c : Dev nD) (t : Fin cfg1.N) (ht : t.val < 98) (r : Fin 8192) (k : Fin 64) :
    (iblk1 V c 0 t : S8192x64.Idx → Elt Ideal .f32) (ix2 r k)
      = V c main_v43 (ix2 (⟨t.val * 8192 + r.val, by omega⟩ : Fin 802816) k) := by
  show V c main_v43 (((cfg1.win 0).blk t).view.emb (ix2 r k)) = _
  refine congrArg (V c main_v43) (funext fun a => Fin.ext ?_)
  obtain ⟨e0, e1, -⟩ := idx_facts t
  match a with
  | ⟨0, _⟩ => show win1_0.index t (0 : Fin 2) * 8192 + 1 * r.val = t.val * 8192 + r.val; rw [e0]; omega
  | ⟨1, _⟩ => show win1_0.index t (1 : Fin 2) * 64 + 1 * k.val = k.val; rw [e1]; omega

theorem read1 (c : Dev nD) (t : Fin cfg1.N) (ht : t.val < 98) (r : Fin 8192) (k : Fin 64) :
    (iblk1 V c 1 t : S8192x64.Idx → Elt Ideal .f32) (ix2 r k)
      = V c main_v44 (ix2 (⟨t.val * 8192 + r.val, by omega⟩ : Fin 802816) k) := by
  show V c main_v44 (((cfg1.win 1).blk t).view.emb (ix2 r k)) = _
  refine congrArg (V c main_v44) (funext fun a => Fin.ext ?_)
  obtain ⟨-, -, e0, e1, -⟩ := idx_facts t
  match a with
  | ⟨0, _⟩ => show win1_1.index t (0 : Fin 2) * 8192 + 1 * r.val = t.val * 8192 + r.val; rw [e0]; omega
  | ⟨1, _⟩ => show win1_1.index t (1 : Fin 2) * 64 + 1 * k.val = k.val; rw [e1]; omega

theorem read2 (c : Dev nD) (t : Fin cfg1.N) (ht : t.val < 98) (r : Fin 8192) (k : Fin 32) :
    (iblk1 V c 2 t : S8192x32.Idx → Elt Ideal .f32) (ix2 r k)
      = V c main_v45 (ix2 (⟨t.val * 8192 + r.val, by omega⟩ : Fin 802816) k) := by
  show V c main_v45 (((cfg1.win 2).blk t).view.emb (ix2 r k)) = _
  refine congrArg (V c main_v45) (funext fun a => Fin.ext ?_)
  obtain ⟨-, -, -, -, e0, e1, -⟩ := idx_facts t
  match a with
  | ⟨0, _⟩ => show win1_2.index t (0 : Fin 2) * 8192 + 1 * r.val = t.val * 8192 + r.val; rw [e0]; omega
  | ⟨1, _⟩ => show win1_2.index t (1 : Fin 2) * 32 + 1 * k.val = k.val; rw [e1]; omega

/-- A small operand's one block is its whole array. -/
theorem read3 (c : Dev nD) (t : Fin cfg1.N) : (iblk1 V c 3 t : S160x64.Idx → Elt Ideal .f32) = V c main_arg8 := by
  funext y
  show V c main_arg8 (((cfg1.win 3).blk t).view.emb y) = _
  refine congrArg (V c main_arg8) (funext fun a => Fin.ext ?_)
  obtain ⟨-, -, -, -, -, -, e0, e1, -⟩ := idx_facts t
  match a with
  | ⟨0, _⟩ => show win1_3.index t (0 : Fin 2) * 160 + 1 * (y 0).val = (y 0).val; rw [e0]; omega
  | ⟨1, _⟩ => show win1_3.index t (1 : Fin 2) * 64 + 1 * (y 1).val = (y 1).val; rw [e1]; omega

theorem read4 (c : Dev nD) (t : Fin cfg1.N) : (iblk1 V c 4 t : S1x64.Idx → Elt Ideal .f32) = V c main_v46 := by
  funext y
  show V c main_v46 (((cfg1.win 4).blk t).view.emb y) = _
  refine congrArg (V c main_v46) (funext fun a => Fin.ext ?_)
  obtain ⟨-, -, -, -, -, -, -, -, e0, e1, -⟩ := idx_facts t
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

theorem read5 (c : Dev nD) (t : Fin cfg1.N) : (iblk1 V c 5 t : S160x64.Idx → Elt Ideal .f32) = V c main_arg10 := by
  funext y
  show V c main_arg10 (((cfg1.win 5).blk t).view.emb y) = _
  refine congrArg (V c main_arg10) (funext fun a => Fin.ext ?_)
  obtain ⟨-, -, -, -, -, -, -, -, -, -, e0, e1, -⟩ := idx_facts t
  match a with
  | ⟨0, _⟩ => show win1_5.index t (0 : Fin 2) * 160 + 1 * (y 0).val = (y 0).val; rw [e0]; omega
  | ⟨1, _⟩ => show win1_5.index t (1 : Fin 2) * 64 + 1 * (y 1).val = (y 1).val; rw [e1]; omega

theorem read6 (c : Dev nD) (t : Fin cfg1.N) : (iblk1 V c 6 t : S1x64.Idx → Elt Ideal .f32) = V c main_v47 := by
  funext y
  show V c main_v47 (((cfg1.win 6).blk t).view.emb y) = _
  refine congrArg (V c main_v47) (funext fun a => Fin.ext ?_)
  obtain ⟨-, -, -, -, -, -, -, -, -, -, -, -, e0, e1, -⟩ := idx_facts t
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

/-- WHAT POINT t WRITES BACK is block t of the launch's array. -/
theorem flushed_eq (c : Dev nD) (t : Fin cfg1.N) :
    (dat1 V c).flushed 7 t = ((cfg1.win 7).blk t).view.read (Elt Ideal) (G V c) := by
  have ht : t.val < 98 := lt_of_lt_of_eq t.isLt N_1
  show (cfg1.win 7).cut (grid1.coords t) ((dat1 V c).after 7 t) = _
  rw [after1_7]
  funext j
  show out1_7 (F := Ideal) (iblk1 V c 0 t) (iblk1 V c 1 t) (iblk1 V c 2 t) (iblk1 V c 3 t) (iblk1 V c 4 t) (iblk1 V c 5 t)
      (iblk1 V c 6 t) j = G V c (((cfg1.win 7).blk t).view.emb j)
  obtain ⟨-, -, -, -, -, -, -, -, -, -, -, -, -, -, e0, e1⟩ := idx_facts t
  rw [read3 V c t, read4 V c t, read5 V c t, read6 V c t]
  exact point_msg (iblk1 V c 0 t) (iblk1 V c 1 t) (iblk1 V c 2 t) (V c main_arg8) (V c main_v46) (V c main_arg10) (V c main_v47)
    (V c main_v43) (V c main_v44) (V c main_v45) t.val ht (fun r k => read0 V c t ht r k) (fun r k => read1 V c t ht r k)
    (fun r k => read2 V c t ht r k) j (((cfg1.win 7).blk t).view.emb j)
    (by show win1_7.index t (0 : Fin 2) * 8192 + 1 * (j 0).val = t.val * 8192 + (j 0).val; rw [e0]; omega)
    (by show win1_7.index t (1 : Fin 2) * 64 + 1 * (j 1).val = (j 1).val; rw [e1]; omega)

/-- An index of the output array is in point t's block iff each coordinate is in the block's range on its axis. -/
theorem mem_blk (t : Fin cfg1.N) (i : S802816x64.Idx) :
    i ∈ ((cfg1.win 7).blk t).view.set ↔ ∀ a : Fin 2, win1_7.index t a * S8192x64.size a ≤ (i a).val ∧ (i a).val < win1_7.index t a * S8192x64.size a + S8192x64.size a := by
  show i ∈ ((View.whole main_v48).slice (win1_7.rect t)).set ↔ _
  rw [View.set_slice_whole, Rect.mem_set_unit]
  exact Iff.rfl

/-- Every row is in some point's block: the point that covers row r is r / 8192. -/
theorem cover (i : S802816x64.Idx) : ∃ t : Fin cfg1.N, (cfg1.win 7).flush t = true ∧ i ∈ ((cfg1.win 7).blk t).view.set := by
  have hi0 : (i 0).val < 802816 := (i 0).isLt
  have hi1 : (i 1).val < 64 := (i 1).isLt
  have hN : (i 0).val / 8192 < cfg1.N := by rw [show cfg1.N = 98 from N_1]; omega
  refine ⟨⟨(i 0).val / 8192, hN⟩, flush1_7 _, ?_⟩
  rw [mem_blk]
  obtain ⟨-, -, -, -, -, -, -, -, -, -, -, -, -, -, e0, e1⟩ := idx_facts ⟨(i 0).val / 8192, hN⟩
  intro a
  match a with
  | ⟨0, _⟩ =>
    show win1_7.index ⟨(i 0).val / 8192, hN⟩ (0 : Fin 2) * 8192 ≤ (i 0).val ∧ (i 0).val < win1_7.index ⟨(i 0).val / 8192, hN⟩ (0 : Fin 2) * 8192 + 8192
    rw [e0]; show (i 0).val / 8192 * 8192 ≤ (i 0).val ∧ (i 0).val < (i 0).val / 8192 * 8192 + 8192; omega
  | ⟨1, _⟩ =>
    show win1_7.index ⟨(i 0).val / 8192, hN⟩ (1 : Fin 2) * 64 ≤ (i 1).val ∧ (i 1).val < win1_7.index ⟨(i 0).val / 8192, hN⟩ (1 : Fin 2) * 64 + 64
    rw [e1]; omega

/-- THE OUTPUT ARRAY after the launch. -/
theorem final (c : Dev nD) : (dat1 V c).arrAt 7 cfg1.N = G V c :=
  (dat1 V c).arrAt_eq_of_cover 7 (G V c) (fun t _ => flushed_eq V c t) (cover)

end Cert.KernelIdeal.Region1

end
-- ==== Proof.KerValue.lean ====
/-
  The kernel program's result, read off its run: the contents of the result buffer at the last segment boundary are the
  network of Proof/Net.lean at the kernel program's message function, of the launch contents of the arguments.

  The boundary contents are a fold through @main: a stretch of host operations applies them; a launch replaces its output
  array by the message array of its operand arrays as the launch finds them (Proof/Region0.lean, Proof/Region1.lean)
  and leaves every other buffer. Read backwards from the result: the pooling of the second layer's node features; those
  are the first layer's plus the scattered messages of the second launch, whose operands are the padded gathers of the
  first layer's node features; and so on down to the arguments, which nothing writes.
-/
import proofs.«146160_j84353157693983_1_alg».proof.Proof.Region0
import proofs.«146160_j84353157693983_1_alg».proof.Proof.Region1
import Idealize.ShloMosaic.Lib.StableHlo.Run

set_option maxRecDepth 16384

noncomputable section

namespace Cert.KernelIdeal.KValue

open Cert.KernelIdeal Cert.KernelIdeal.Gen Cert.Net Cert.KNet
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Before the first launch -/

theorem w7_v3 : W7 m ρ c (Proc.devRef .tc main_v3) = dstOf (m ((c : Thread nD τ).loc main_arg1)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v3) = _
  after_results_simp <;> rfl

theorem w7_v1 : W7 m ρ c (Proc.devRef .tc main_v1) = srcOf (m ((c : Thread nD τ).loc main_arg1)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v1) = _
  after_results_simp <;> rfl

theorem w7_v18 : W7 m ρ c (Proc.devRef .tc main_v18) = padRows64 (rowsOf (m ((c : Thread nD τ).loc main_arg0)) (dstOf (m ((c : Thread nD τ).loc main_arg1)))) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v18) = _
  after_results_simp <;> rfl

theorem w7_v19 : W7 m ρ c (Proc.devRef .tc main_v19) = padRows64 (rowsOf (m ((c : Thread nD τ).loc main_arg0)) (srcOf (m ((c : Thread nD τ).loc main_arg1)))) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v19) = _
  after_results_simp <;> rfl

theorem w7_v20 : W7 m ρ c (Proc.devRef .tc main_v20) = padRows32 (m ((c : Thread nD τ).loc main_arg2)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v20) = _
  after_results_simp <;> rfl

theorem w7_v21 : W7 m ρ c (Proc.devRef .tc main_v21) = biasRow (m ((c : Thread nD τ).loc main_arg5)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v21) = _
  after_results_simp <;> rfl

theorem w7_v22 : W7 m ρ c (Proc.devRef .tc main_v22) = biasRow (m ((c : Thread nD τ).loc main_arg7)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v22) = _
  after_results_simp <;> rfl

theorem w7_arg0 : W7 m ρ c (Proc.devRef .tc main_arg0) = (m ((c : Thread nD τ).loc main_arg0)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg0) = _
  after_results_simp <;> rfl

theorem w7_arg2 : W7 m ρ c (Proc.devRef .tc main_arg2) = (m ((c : Thread nD τ).loc main_arg2)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg2) = _
  after_results_simp <;> rfl

theorem w7_arg3 : W7 m ρ c (Proc.devRef .tc main_arg3) = (m ((c : Thread nD τ).loc main_arg3)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg3) = _
  after_results_simp <;> rfl

theorem w7_arg4 : W7 m ρ c (Proc.devRef .tc main_arg4) = (m ((c : Thread nD τ).loc main_arg4)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg4) = _
  after_results_simp <;> rfl

theorem w7_arg6 : W7 m ρ c (Proc.devRef .tc main_arg6) = (m ((c : Thread nD τ).loc main_arg6)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg6) = _
  after_results_simp <;> rfl

theorem w7_arg8 : W7 m ρ c (Proc.devRef .tc main_arg8) = (m ((c : Thread nD τ).loc main_arg8)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg8) = _
  after_results_simp <;> rfl

theorem w7_arg9 : W7 m ρ c (Proc.devRef .tc main_arg9) = (m ((c : Thread nD τ).loc main_arg9)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg9) = _
  after_results_simp <;> rfl

theorem w7_arg10 : W7 m ρ c (Proc.devRef .tc main_arg10) = (m ((c : Thread nD τ).loc main_arg10)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg10) = _
  after_results_simp <;> rfl

theorem w7_arg11 : W7 m ρ c (Proc.devRef .tc main_arg11) = (m ((c : Thread nD τ).loc main_arg11)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg11) = _
  after_results_simp <;> rfl

theorem w7_arg12 : W7 m ρ c (Proc.devRef .tc main_arg12) = (m ((c : Thread nD τ).loc main_arg12)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg12) = _
  after_results_simp <;> rfl

theorem w7_arg13 : W7 m ρ c (Proc.devRef .tc main_arg13) = (m ((c : Thread nD τ).loc main_arg13)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg13) = _
  after_results_simp <;> rfl

/-! ## The first launch -/

/-- The first launch's output array: the padded messages of the first layer. -/
theorem w8_v23 : W8 m ρ c (Proc.devRef .tc main_v23)
    = launch (padRows64 (rowsOf (m ((c : Thread nD τ).loc main_arg0)) (dstOf (m ((c : Thread nD τ).loc main_arg1))))) (padRows64 (rowsOf (m ((c : Thread nD τ).loc main_arg0)) (srcOf (m ((c : Thread nD τ).loc main_arg1))))) (padRows32 (m ((c : Thread nD τ).loc main_arg2)))
        (m ((c : Thread nD τ).loc main_arg4)) (biasRow (m ((c : Thread nD τ).loc main_arg5))) (m ((c : Thread nD τ).loc main_arg6)) (biasRow (m ((c : Thread nD τ).loc main_arg7))) := by
  refine (W8_arr m ρ c 7).trans ((Region0.final (V7 m ρ) c).trans ?_)
  show launch (W7 m ρ c (Proc.devRef .tc main_v18)) (W7 m ρ c (Proc.devRef .tc main_v19)) (W7 m ρ c (Proc.devRef .tc main_v20)) (W7 m ρ c (Proc.devRef .tc main_arg4))
      (W7 m ρ c (Proc.devRef .tc main_v21)) (W7 m ρ c (Proc.devRef .tc main_arg6)) (W7 m ρ c (Proc.devRef .tc main_v22)) = _
  rw [w7_v18, w7_v19, w7_v20, w7_arg4, w7_v21, w7_arg6, w7_v22]

theorem w8_v3 : W8 m ρ c (Proc.devRef .tc main_v3) = W7 m ρ c (Proc.devRef .tc main_v3) := W8_of_ne m ρ c main_v3 (by decide)
theorem w8_v1 : W8 m ρ c (Proc.devRef .tc main_v1) = W7 m ρ c (Proc.devRef .tc main_v1) := W8_of_ne m ρ c main_v1 (by decide)
theorem w8_arg0 : W8 m ρ c (Proc.devRef .tc main_arg0) = W7 m ρ c (Proc.devRef .tc main_arg0) := W8_of_ne m ρ c main_arg0 (by decide)
theorem w8_arg2 : W8 m ρ c (Proc.devRef .tc main_arg2) = W7 m ρ c (Proc.devRef .tc main_arg2) := W8_of_ne m ρ c main_arg2 (by decide)
theorem w8_arg3 : W8 m ρ c (Proc.devRef .tc main_arg3) = W7 m ρ c (Proc.devRef .tc main_arg3) := W8_of_ne m ρ c main_arg3 (by decide)
theorem w8_arg8 : W8 m ρ c (Proc.devRef .tc main_arg8) = W7 m ρ c (Proc.devRef .tc main_arg8) := W8_of_ne m ρ c main_arg8 (by decide)
theorem w8_arg9 : W8 m ρ c (Proc.devRef .tc main_arg9) = W7 m ρ c (Proc.devRef .tc main_arg9) := W8_of_ne m ρ c main_arg9 (by decide)
theorem w8_arg10 : W8 m ρ c (Proc.devRef .tc main_arg10) = W7 m ρ c (Proc.devRef .tc main_arg10) := W8_of_ne m ρ c main_arg10 (by decide)
theorem w8_arg11 : W8 m ρ c (Proc.devRef .tc main_arg11) = W7 m ρ c (Proc.devRef .tc main_arg11) := W8_of_ne m ρ c main_arg11 (by decide)
theorem w8_arg12 : W8 m ρ c (Proc.devRef .tc main_arg12) = W7 m ρ c (Proc.devRef .tc main_arg12) := W8_of_ne m ρ c main_arg12 (by decide)
theorem w8_arg13 : W8 m ρ c (Proc.devRef .tc main_arg13) = W7 m ρ c (Proc.devRef .tc main_arg13) := W8_of_ne m ρ c main_arg13 (by decide)

/-! ## Between the launches -/

theorem w15_v28 : W15 m ρ c (Proc.devRef .tc main_v28) = (layer msgKer (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  show StableHlo.after hostOps1_6 (StableHlo.after hostOps1_5 (StableHlo.after hostOps1_4 (StableHlo.after hostOps1_3 (StableHlo.after hostOps1_2 (StableHlo.after hostOps1_1 (StableHlo.after hostOps1 (W8 m ρ c))))))) (Proc.devRef .tc main_v28) = _
  after_results_simp
  simp only [w8_v23 m ρ c, w8_v3 m ρ c, w8_v1 m ρ c, w8_arg0 m ρ c, w8_arg2 m ρ c, w8_arg3 m ρ c, w8_arg8 m ρ c, w8_arg9 m ρ c, w8_arg10 m ρ c, w8_arg11 m ρ c, w8_arg12 m ρ c, w8_arg13 m ρ c, w7_v3 m ρ c, w7_v1 m ρ c, w7_arg0 m ρ c, w7_arg2 m ρ c, w7_arg3 m ρ c, w7_arg8 m ρ c, w7_arg9 m ρ c, w7_arg10 m ρ c, w7_arg11 m ρ c, w7_arg12 m ρ c, w7_arg13 m ρ c] <;> rfl

theorem w15_v43 : W15 m ρ c (Proc.devRef .tc main_v43) = padRows64 (rowsOf (layer msgKer (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (dstOf (m ((c : Thread nD τ).loc main_arg1)))) := by
  show StableHlo.after hostOps1_6 (StableHlo.after hostOps1_5 (StableHlo.after hostOps1_4 (StableHlo.after hostOps1_3 (StableHlo.after hostOps1_2 (StableHlo.after hostOps1_1 (StableHlo.after hostOps1 (W8 m ρ c))))))) (Proc.devRef .tc main_v43) = _
  after_results_simp
  simp only [w8_v23 m ρ c, w8_v3 m ρ c, w8_v1 m ρ c, w8_arg0 m ρ c, w8_arg2 m ρ c, w8_arg3 m ρ c, w8_arg8 m ρ c, w8_arg9 m ρ c, w8_arg10 m ρ c, w8_arg11 m ρ c, w8_arg12 m ρ c, w8_arg13 m ρ c, w7_v3 m ρ c, w7_v1 m ρ c, w7_arg0 m ρ c, w7_arg2 m ρ c, w7_arg3 m ρ c, w7_arg8 m ρ c, w7_arg9 m ρ c, w7_arg10 m ρ c, w7_arg11 m ρ c, w7_arg12 m ρ c, w7_arg13 m ρ c] <;> rfl

theorem w15_v44 : W15 m ρ c (Proc.devRef .tc main_v44) = padRows64 (rowsOf (layer msgKer (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (srcOf (m ((c : Thread nD τ).loc main_arg1)))) := by
  show StableHlo.after hostOps1_6 (StableHlo.after hostOps1_5 (StableHlo.after hostOps1_4 (StableHlo.after hostOps1_3 (StableHlo.after hostOps1_2 (StableHlo.after hostOps1_1 (StableHlo.after hostOps1 (W8 m ρ c))))))) (Proc.devRef .tc main_v44) = _
  after_results_simp
  simp only [w8_v23 m ρ c, w8_v3 m ρ c, w8_v1 m ρ c, w8_arg0 m ρ c, w8_arg2 m ρ c, w8_arg3 m ρ c, w8_arg8 m ρ c, w8_arg9 m ρ c, w8_arg10 m ρ c, w8_arg11 m ρ c, w8_arg12 m ρ c, w8_arg13 m ρ c, w7_v3 m ρ c, w7_v1 m ρ c, w7_arg0 m ρ c, w7_arg2 m ρ c, w7_arg3 m ρ c, w7_arg8 m ρ c, w7_arg9 m ρ c, w7_arg10 m ρ c, w7_arg11 m ρ c, w7_arg12 m ρ c, w7_arg13 m ρ c] <;> rfl

theorem w15_v45 : W15 m ρ c (Proc.devRef .tc main_v45) = padRows32 (m ((c : Thread nD τ).loc main_arg2)) := by
  show StableHlo.after hostOps1_6 (StableHlo.after hostOps1_5 (StableHlo.after hostOps1_4 (StableHlo.after hostOps1_3 (StableHlo.after hostOps1_2 (StableHlo.after hostOps1_1 (StableHlo.after hostOps1 (W8 m ρ c))))))) (Proc.devRef .tc main_v45) = _
  after_results_simp
  simp only [w8_v23 m ρ c, w8_v3 m ρ c, w8_v1 m ρ c, w8_arg0 m ρ c, w8_arg2 m ρ c, w8_arg3 m ρ c, w8_arg8 m ρ c, w8_arg9 m ρ c, w8_arg10 m ρ c, w8_arg11 m ρ c, w8_arg12 m ρ c, w8_arg13 m ρ c, w7_v3 m ρ c, w7_v1 m ρ c, w7_arg0 m ρ c, w7_arg2 m ρ c, w7_arg3 m ρ c, w7_arg8 m ρ c, w7_arg9 m ρ c, w7_arg10 m ρ c, w7_arg11 m ρ c, w7_arg12 m ρ c, w7_arg13 m ρ c] <;> rfl

theorem w15_v46 : W15 m ρ c (Proc.devRef .tc main_v46) = biasRow (m ((c : Thread nD τ).loc main_arg9)) := by
  show StableHlo.after hostOps1_6 (StableHlo.after hostOps1_5 (StableHlo.after hostOps1_4 (StableHlo.after hostOps1_3 (StableHlo.after hostOps1_2 (StableHlo.after hostOps1_1 (StableHlo.after hostOps1 (W8 m ρ c))))))) (Proc.devRef .tc main_v46) = _
  after_results_simp
  simp only [w8_v23 m ρ c, w8_v3 m ρ c, w8_v1 m ρ c, w8_arg0 m ρ c, w8_arg2 m ρ c, w8_arg3 m ρ c, w8_arg8 m ρ c, w8_arg9 m ρ c, w8_arg10 m ρ c, w8_arg11 m ρ c, w8_arg12 m ρ c, w8_arg13 m ρ c, w7_v3 m ρ c, w7_v1 m ρ c, w7_arg0 m ρ c, w7_arg2 m ρ c, w7_arg3 m ρ c, w7_arg8 m ρ c, w7_arg9 m ρ c, w7_arg10 m ρ c, w7_arg11 m ρ c, w7_arg12 m ρ c, w7_arg13 m ρ c] <;> rfl

theorem w15_v47 : W15 m ρ c (Proc.devRef .tc main_v47) = biasRow (m ((c : Thread nD τ).loc main_arg11)) := by
  show StableHlo.after hostOps1_6 (StableHlo.after hostOps1_5 (StableHlo.after hostOps1_4 (StableHlo.after hostOps1_3 (StableHlo.after hostOps1_2 (StableHlo.after hostOps1_1 (StableHlo.after hostOps1 (W8 m ρ c))))))) (Proc.devRef .tc main_v47) = _
  after_results_simp
  simp only [w8_v23 m ρ c, w8_v3 m ρ c, w8_v1 m ρ c, w8_arg0 m ρ c, w8_arg2 m ρ c, w8_arg3 m ρ c, w8_arg8 m ρ c, w8_arg9 m ρ c, w8_arg10 m ρ c, w8_arg11 m ρ c, w8_arg12 m ρ c, w8_arg13 m ρ c, w7_v3 m ρ c, w7_v1 m ρ c, w7_arg0 m ρ c, w7_arg2 m ρ c, w7_arg3 m ρ c, w7_arg8 m ρ c, w7_arg9 m ρ c, w7_arg10 m ρ c, w7_arg11 m ρ c, w7_arg12 m ρ c, w7_arg13 m ρ c] <;> rfl

theorem w15_v3 : W15 m ρ c (Proc.devRef .tc main_v3) = dstOf (m ((c : Thread nD τ).loc main_arg1)) := by
  show StableHlo.after hostOps1_6 (StableHlo.after hostOps1_5 (StableHlo.after hostOps1_4 (StableHlo.after hostOps1_3 (StableHlo.after hostOps1_2 (StableHlo.after hostOps1_1 (StableHlo.after hostOps1 (W8 m ρ c))))))) (Proc.devRef .tc main_v3) = _
  after_results_simp
  simp only [w8_v23 m ρ c, w8_v3 m ρ c, w8_v1 m ρ c, w8_arg0 m ρ c, w8_arg2 m ρ c, w8_arg3 m ρ c, w8_arg8 m ρ c, w8_arg9 m ρ c, w8_arg10 m ρ c, w8_arg11 m ρ c, w8_arg12 m ρ c, w8_arg13 m ρ c, w7_v3 m ρ c, w7_v1 m ρ c, w7_arg0 m ρ c, w7_arg2 m ρ c, w7_arg3 m ρ c, w7_arg8 m ρ c, w7_arg9 m ρ c, w7_arg10 m ρ c, w7_arg11 m ρ c, w7_arg12 m ρ c, w7_arg13 m ρ c] <;> rfl

theorem w15_arg3 : W15 m ρ c (Proc.devRef .tc main_arg3) = (m ((c : Thread nD τ).loc main_arg3)) := by
  show StableHlo.after hostOps1_6 (StableHlo.after hostOps1_5 (StableHlo.after hostOps1_4 (StableHlo.after hostOps1_3 (StableHlo.after hostOps1_2 (StableHlo.after hostOps1_1 (StableHlo.after hostOps1 (W8 m ρ c))))))) (Proc.devRef .tc main_arg3) = _
  after_results_simp
  simp only [w8_v23 m ρ c, w8_v3 m ρ c, w8_v1 m ρ c, w8_arg0 m ρ c, w8_arg2 m ρ c, w8_arg3 m ρ c, w8_arg8 m ρ c, w8_arg9 m ρ c, w8_arg10 m ρ c, w8_arg11 m ρ c, w8_arg12 m ρ c, w8_arg13 m ρ c, w7_v3 m ρ c, w7_v1 m ρ c, w7_arg0 m ρ c, w7_arg2 m ρ c, w7_arg3 m ρ c, w7_arg8 m ρ c, w7_arg9 m ρ c, w7_arg10 m ρ c, w7_arg11 m ρ c, w7_arg12 m ρ c, w7_arg13 m ρ c] <;> rfl

theorem w15_arg8 : W15 m ρ c (Proc.devRef .tc main_arg8) = (m ((c : Thread nD τ).loc main_arg8)) := by
  show StableHlo.after hostOps1_6 (StableHlo.after hostOps1_5 (StableHlo.after hostOps1_4 (StableHlo.after hostOps1_3 (StableHlo.after hostOps1_2 (StableHlo.after hostOps1_1 (StableHlo.after hostOps1 (W8 m ρ c))))))) (Proc.devRef .tc main_arg8) = _
  after_results_simp
  simp only [w8_v23 m ρ c, w8_v3 m ρ c, w8_v1 m ρ c, w8_arg0 m ρ c, w8_arg2 m ρ c, w8_arg3 m ρ c, w8_arg8 m ρ c, w8_arg9 m ρ c, w8_arg10 m ρ c, w8_arg11 m ρ c, w8_arg12 m ρ c, w8_arg13 m ρ c, w7_v3 m ρ c, w7_v1 m ρ c, w7_arg0 m ρ c, w7_arg2 m ρ c, w7_arg3 m ρ c, w7_arg8 m ρ c, w7_arg9 m ρ c, w7_arg10 m ρ c, w7_arg11 m ρ c, w7_arg12 m ρ c, w7_arg13 m ρ c] <;> rfl

theorem w15_arg10 : W15 m ρ c (Proc.devRef .tc main_arg10) = (m ((c : Thread nD τ).loc main_arg10)) := by
  show StableHlo.after hostOps1_6 (StableHlo.after hostOps1_5 (StableHlo.after hostOps1_4 (StableHlo.after hostOps1_3 (StableHlo.after hostOps1_2 (StableHlo.after hostOps1_1 (StableHlo.after hostOps1 (W8 m ρ c))))))) (Proc.devRef .tc main_arg10) = _
  after_results_simp
  simp only [w8_v23 m ρ c, w8_v3 m ρ c, w8_v1 m ρ c, w8_arg0 m ρ c, w8_arg2 m ρ c, w8_arg3 m ρ c, w8_arg8 m ρ c, w8_arg9 m ρ c, w8_arg10 m ρ c, w8_arg11 m ρ c, w8_arg12 m ρ c, w8_arg13 m ρ c, w7_v3 m ρ c, w7_v1 m ρ c, w7_arg0 m ρ c, w7_arg2 m ρ c, w7_arg3 m ρ c, w7_arg8 m ρ c, w7_arg9 m ρ c, w7_arg10 m ρ c, w7_arg11 m ρ c, w7_arg12 m ρ c, w7_arg13 m ρ c] <;> rfl

theorem w15_arg12 : W15 m ρ c (Proc.devRef .tc main_arg12) = (m ((c : Thread nD τ).loc main_arg12)) := by
  show StableHlo.after hostOps1_6 (StableHlo.after hostOps1_5 (StableHlo.after hostOps1_4 (StableHlo.after hostOps1_3 (StableHlo.after hostOps1_2 (StableHlo.after hostOps1_1 (StableHlo.after hostOps1 (W8 m ρ c))))))) (Proc.devRef .tc main_arg12) = _
  after_results_simp
  simp only [w8_v23 m ρ c, w8_v3 m ρ c, w8_v1 m ρ c, w8_arg0 m ρ c, w8_arg2 m ρ c, w8_arg3 m ρ c, w8_arg8 m ρ c, w8_arg9 m ρ c, w8_arg10 m ρ c, w8_arg11 m ρ c, w8_arg12 m ρ c, w8_arg13 m ρ c, w7_v3 m ρ c, w7_v1 m ρ c, w7_arg0 m ρ c, w7_arg2 m ρ c, w7_arg3 m ρ c, w7_arg8 m ρ c, w7_arg9 m ρ c, w7_arg10 m ρ c, w7_arg11 m ρ c, w7_arg12 m ρ c, w7_arg13 m ρ c] <;> rfl

theorem w15_arg13 : W15 m ρ c (Proc.devRef .tc main_arg13) = (m ((c : Thread nD τ).loc main_arg13)) := by
  show StableHlo.after hostOps1_6 (StableHlo.after hostOps1_5 (StableHlo.after hostOps1_4 (StableHlo.after hostOps1_3 (StableHlo.after hostOps1_2 (StableHlo.after hostOps1_1 (StableHlo.after hostOps1 (W8 m ρ c))))))) (Proc.devRef .tc main_arg13) = _
  after_results_simp
  simp only [w8_v23 m ρ c, w8_v3 m ρ c, w8_v1 m ρ c, w8_arg0 m ρ c, w8_arg2 m ρ c, w8_arg3 m ρ c, w8_arg8 m ρ c, w8_arg9 m ρ c, w8_arg10 m ρ c, w8_arg11 m ρ c, w8_arg12 m ρ c, w8_arg13 m ρ c, w7_v3 m ρ c, w7_v1 m ρ c, w7_arg0 m ρ c, w7_arg2 m ρ c, w7_arg3 m ρ c, w7_arg8 m ρ c, w7_arg9 m ρ c, w7_arg10 m ρ c, w7_arg11 m ρ c, w7_arg12 m ρ c, w7_arg13 m ρ c] <;> rfl

/-! ## The second launch -/

/-- The second launch's output array: the padded messages of the second layer. -/
theorem w16_v48 : W16 m ρ c (Proc.devRef .tc main_v48)
    = launch (padRows64 (rowsOf (layer msgKer (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (dstOf (m ((c : Thread nD τ).loc main_arg1))))) (padRows64 (rowsOf (layer msgKer (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) (srcOf (m ((c : Thread nD τ).loc main_arg1))))) (padRows32 (m ((c : Thread nD τ).loc main_arg2)))
        (m ((c : Thread nD τ).loc main_arg8)) (biasRow (m ((c : Thread nD τ).loc main_arg9))) (m ((c : Thread nD τ).loc main_arg10)) (biasRow (m ((c : Thread nD τ).loc main_arg11))) := by
  refine (W16_arr m ρ c 7).trans ((Region1.final (V15 m ρ) c).trans ?_)
  show launch (W15 m ρ c (Proc.devRef .tc main_v43)) (W15 m ρ c (Proc.devRef .tc main_v44)) (W15 m ρ c (Proc.devRef .tc main_v45)) (W15 m ρ c (Proc.devRef .tc main_arg8))
      (W15 m ρ c (Proc.devRef .tc main_v46)) (W15 m ρ c (Proc.devRef .tc main_arg10)) (W15 m ρ c (Proc.devRef .tc main_v47)) = _
  rw [w15_v43, w15_v44, w15_v45, w15_arg8, w15_v46, w15_arg10, w15_v47]

theorem w16_v3 : W16 m ρ c (Proc.devRef .tc main_v3) = W15 m ρ c (Proc.devRef .tc main_v3) := W16_of_ne m ρ c main_v3 (by decide)
theorem w16_v28 : W16 m ρ c (Proc.devRef .tc main_v28) = W15 m ρ c (Proc.devRef .tc main_v28) := W16_of_ne m ρ c main_v28 (by decide)
theorem w16_arg3 : W16 m ρ c (Proc.devRef .tc main_arg3) = W15 m ρ c (Proc.devRef .tc main_arg3) := W16_of_ne m ρ c main_arg3 (by decide)
theorem w16_arg12 : W16 m ρ c (Proc.devRef .tc main_arg12) = W15 m ρ c (Proc.devRef .tc main_arg12) := W16_of_ne m ρ c main_arg12 (by decide)
theorem w16_arg13 : W16 m ρ c (Proc.devRef .tc main_arg13) = W15 m ρ c (Proc.devRef .tc main_arg13) := W16_of_ne m ρ c main_arg13 (by decide)

/-! ## After the second launch -/

/-- THE KERNEL PROGRAM'S RESULT: the network at its own message function. -/
theorem result_is_net : W17 m ρ c (Proc.devRef .tc main_v60)
    = net msgKer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps2 (W16 m ρ c) (Proc.devRef .tc main_v60) = _
  after_results_simp
  simp only [w16_v48 m ρ c, w16_v3 m ρ c, w16_v28 m ρ c, w16_arg3 m ρ c, w16_arg12 m ρ c, w16_arg13 m ρ c, w15_v3 m ρ c, w15_v28 m ρ c, w15_arg3 m ρ c, w15_arg12 m ρ c, w15_arg13 m ρ c] <;> rfl

end Cert.KernelIdeal.KValue

end
-- ==== Proof.RefValue.lean ====
/-
  The reference program's result, read off its run: the fold of its 126 operations over the launch contents, at the
  result buffer, is the network of Proof/Net.lean at the reference's own message function.

  The fold is read in three stretches — the first layer, the second layer, the pooling with the output map — each over
  ARBITRARY contents at its start, so that no stretch ever opens the one before it: what a stretch needs of the earlier
  ones is the node features they left and the arguments they did not touch.
-/
import proofs.«146160_j84353157693983_1_alg».proof.Proof.RefRun
import proofs.«146160_j84353157693983_1_alg».proof.Proof.Net

noncomputable section

namespace Cert.RefValue

open Cert.ReferenceIdeal Cert.ReferenceIdeal.Gen Cert.ReferenceIdeal.ValueP Cert.Net
open Idealize.ShloMosaic Idealize.ShloMosaic.TcCoe Idealize.ShloMosaic.StableHlo Idealize.SL.Sem

/-- Running two lists of operations in a row is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

variable (V : Valuation τ sig (Elt Ideal))

/-- The first layer leaves the first layer's node features. -/
theorem first_layer :
    after (ops_a (F := Ideal)) V (Proc.devRef .tc main_v38)
      = layer msgRef (V (Proc.devRef .tc main_arg0)) (V (Proc.devRef .tc main_arg1)) (V (Proc.devRef .tc main_arg2))
          (V (Proc.devRef .tc main_arg4)) (V (Proc.devRef .tc main_arg5)) (V (Proc.devRef .tc main_arg6)) (V (Proc.devRef .tc main_arg7)) := by
  after_results_simp
  rfl

/-- The first layer's operations leave the later stretches' arguments as they were. -/
theorem first_keeps_arg1 : after (ops_a (F := Ideal)) V (Proc.devRef .tc main_arg1) = V (Proc.devRef .tc main_arg1) := by
  after_results_simp
theorem first_keeps_arg2 : after (ops_a (F := Ideal)) V (Proc.devRef .tc main_arg2) = V (Proc.devRef .tc main_arg2) := by
  after_results_simp
theorem first_keeps_arg3 : after (ops_a (F := Ideal)) V (Proc.devRef .tc main_arg3) = V (Proc.devRef .tc main_arg3) := by
  after_results_simp
theorem first_keeps_arg8 : after (ops_a (F := Ideal)) V (Proc.devRef .tc main_arg8) = V (Proc.devRef .tc main_arg8) := by
  after_results_simp
theorem first_keeps_arg9 : after (ops_a (F := Ideal)) V (Proc.devRef .tc main_arg9) = V (Proc.devRef .tc main_arg9) := by
  after_results_simp
theorem first_keeps_arg10 : after (ops_a (F := Ideal)) V (Proc.devRef .tc main_arg10) = V (Proc.devRef .tc main_arg10) := by
  after_results_simp
theorem first_keeps_arg11 : after (ops_a (F := Ideal)) V (Proc.devRef .tc main_arg11) = V (Proc.devRef .tc main_arg11) := by
  after_results_simp
theorem first_keeps_arg12 : after (ops_a (F := Ideal)) V (Proc.devRef .tc main_arg12) = V (Proc.devRef .tc main_arg12) := by
  after_results_simp
theorem first_keeps_arg13 : after (ops_a (F := Ideal)) V (Proc.devRef .tc main_arg13) = V (Proc.devRef .tc main_arg13) := by
  after_results_simp

/-- The second layer, from the first layer's node features, leaves the second layer's. -/
theorem second_layer :
    after (ops_b (F := Ideal)) V (Proc.devRef .tc main_v77)
      = layer msgRef (V (Proc.devRef .tc main_v38)) (V (Proc.devRef .tc main_arg1)) (V (Proc.devRef .tc main_arg2))
          (V (Proc.devRef .tc main_arg8)) (V (Proc.devRef .tc main_arg9)) (V (Proc.devRef .tc main_arg10)) (V (Proc.devRef .tc main_arg11)) := by
  after_results_simp
  rfl

/-- The second layer's operations leave the last stretch's arguments as they were. -/
theorem second_keeps_arg3 : after (ops_b (F := Ideal)) V (Proc.devRef .tc main_arg3) = V (Proc.devRef .tc main_arg3) := by
  after_results_simp
theorem second_keeps_arg12 : after (ops_b (F := Ideal)) V (Proc.devRef .tc main_arg12) = V (Proc.devRef .tc main_arg12) := by
  after_results_simp
theorem second_keeps_arg13 : after (ops_b (F := Ideal)) V (Proc.devRef .tc main_arg13) = V (Proc.devRef .tc main_arg13) := by
  after_results_simp

/-- The last stretch: the per-graph sums of the node features, times the output column, plus the output bias. -/
theorem pooling :
    after (ops_c (F := Ideal)) V (Proc.devRef .tc main_v84)
      = pool (V (Proc.devRef .tc main_v77)) (V (Proc.devRef .tc main_arg3)) (V (Proc.devRef .tc main_arg12)) (V (Proc.devRef .tc main_arg13)) := by
  after_results_simp
  rfl

/-- THE REFERENCE'S RESULT: the fold of all 126 operations, at the result buffer, is the network at the reference's
    message function, of the contents the fold starts from. -/
theorem result_is_net :
    after (ops (F := Ideal)) V (Proc.devRef .tc main_v84)
      = net msgRef (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11))
          (V (Proc.devRef .tc main_arg12)) (V (Proc.devRef .tc main_arg13)) := by
  rw [ops_eq, after_append, after_append, pooling, second_layer, second_keeps_arg3, second_keeps_arg12, second_keeps_arg13,
    first_layer, first_keeps_arg1, first_keeps_arg2, first_keeps_arg3, first_keeps_arg8, first_keeps_arg9, first_keeps_arg10,
    first_keeps_arg11, first_keeps_arg12, first_keeps_arg13]
  rfl

/-- No operation writes an argument: the fold leaves each argument's buffer as it found it. -/
theorem keeps_arg0 : after (ops (F := Ideal)) V (Proc.devRef .tc main_arg0) = V (Proc.devRef .tc main_arg0) := by
  after_results_simp
theorem keeps_arg1 : after (ops (F := Ideal)) V (Proc.devRef .tc main_arg1) = V (Proc.devRef .tc main_arg1) := by
  after_results_simp
theorem keeps_arg2 : after (ops (F := Ideal)) V (Proc.devRef .tc main_arg2) = V (Proc.devRef .tc main_arg2) := by
  after_results_simp
theorem keeps_arg3 : after (ops (F := Ideal)) V (Proc.devRef .tc main_arg3) = V (Proc.devRef .tc main_arg3) := by
  after_results_simp
theorem keeps_arg4 : after (ops (F := Ideal)) V (Proc.devRef .tc main_arg4) = V (Proc.devRef .tc main_arg4) := by
  after_results_simp
theorem keeps_arg5 : after (ops (F := Ideal)) V (Proc.devRef .tc main_arg5) = V (Proc.devRef .tc main_arg5) := by
  after_results_simp
theorem keeps_arg6 : after (ops (F := Ideal)) V (Proc.devRef .tc main_arg6) = V (Proc.devRef .tc main_arg6) := by
  after_results_simp
theorem keeps_arg7 : after (ops (F := Ideal)) V (Proc.devRef .tc main_arg7) = V (Proc.devRef .tc main_arg7) := by
  after_results_simp
theorem keeps_arg8 : after (ops (F := Ideal)) V (Proc.devRef .tc main_arg8) = V (Proc.devRef .tc main_arg8) := by
  after_results_simp
theorem keeps_arg9 : after (ops (F := Ideal)) V (Proc.devRef .tc main_arg9) = V (Proc.devRef .tc main_arg9) := by
  after_results_simp
theorem keeps_arg10 : after (ops (F := Ideal)) V (Proc.devRef .tc main_arg10) = V (Proc.devRef .tc main_arg10) := by
  after_results_simp
theorem keeps_arg11 : after (ops (F := Ideal)) V (Proc.devRef .tc main_arg11) = V (Proc.devRef .tc main_arg11) := by
  after_results_simp
theorem keeps_arg12 : after (ops (F := Ideal)) V (Proc.devRef .tc main_arg12) = V (Proc.devRef .tc main_arg12) := by
  after_results_simp
theorem keeps_arg13 : after (ops (F := Ideal)) V (Proc.devRef .tc main_arg13) = V (Proc.devRef .tc main_arg13) := by
  after_results_simp

end Cert.RefValue

end
-- ==== Proof.LibConcat3.lean ====
/-
  Three arrays of rows joined along the last axis, read at an entry: row r of the joined array is row r of the first
  array, then row r of the second, then row r of the third. A column below the first extent is the first array's; a
  column in the second stretch is the second array's, the first extent less; a column in the third stretch is the third
  array's, the first two extents less.
-/
import Idealize.ShloMosaic.Lib.ValueIdx
import Idealize.ShloMosaic.Lib.Pipeline.Value

noncomputable section

namespace Cert.Lib.Concat3

open Idealize.ShloMosaic Idealize.ShloMosaic.ValueIdx

variable {α : Type}

/-- The first stretch. -/
theorem cols_first {a b₁ b₂ b₃ B : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, B]⟩ 1) (r : Fin a) (c : Fin B)
    (c' : Fin b₁) (hc : c'.val = c.val) :
    concatenate ⟨2, ![a, B]⟩ 1 [⟨⟨2, ![a, b₁]⟩, x₁⟩, ⟨⟨2, ![a, b₂]⟩, x₂⟩, ⟨⟨2, ![a, b₃]⟩, x₃⟩] h (ix2 r c) = x₁ (ix2 r c') :=
  concatenate_apply_piece 1 [⟨⟨2, ![a, b₁]⟩, x₁⟩, ⟨⟨2, ![a, b₂]⟩, x₂⟩, ⟨⟨2, ![a, b₃]⟩, x₃⟩] h (ix2 r c) 0 (by show (0 : ℕ) < 3; omega) ⟨2, ![a, b₁]⟩ x₁ rfl rfl 0 rfl (ix2 r c')
    (fun b hb => by
      match b with
      | ⟨0, _⟩ => rfl
      | ⟨1, _⟩ => exact absurd rfl hb)
    (by show 0 + c'.val = c.val; omega)

/-- The second stretch. -/
theorem cols_second {a b₁ b₂ b₃ B : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, B]⟩ 1) (r : Fin a) (c : Fin B)
    (c' : Fin b₂) (hc : b₁ + c'.val = c.val) :
    concatenate ⟨2, ![a, B]⟩ 1 [⟨⟨2, ![a, b₁]⟩, x₁⟩, ⟨⟨2, ![a, b₂]⟩, x₂⟩, ⟨⟨2, ![a, b₃]⟩, x₃⟩] h (ix2 r c) = x₂ (ix2 r c') :=
  concatenate_apply_piece 1 [⟨⟨2, ![a, b₁]⟩, x₁⟩, ⟨⟨2, ![a, b₂]⟩, x₂⟩, ⟨⟨2, ![a, b₃]⟩, x₃⟩] h (ix2 r c) 1 (by show (1 : ℕ) < 3; omega) ⟨2, ![a, b₂]⟩ x₂ rfl rfl b₁ rfl (ix2 r c')
    (fun b hb => by
      match b with
      | ⟨0, _⟩ => rfl
      | ⟨1, _⟩ => exact absurd rfl hb)
    (by show b₁ + c'.val = c.val; omega)

/-- The third stretch. -/
theorem cols_third {a b₁ b₂ b₃ B : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, B]⟩ 1) (r : Fin a) (c : Fin B)
    (c' : Fin b₃) (hc : b₁ + b₂ + c'.val = c.val) :
    concatenate ⟨2, ![a, B]⟩ 1 [⟨⟨2, ![a, b₁]⟩, x₁⟩, ⟨⟨2, ![a, b₂]⟩, x₂⟩, ⟨⟨2, ![a, b₃]⟩, x₃⟩] h (ix2 r c) = x₃ (ix2 r c') :=
  concatenate_apply_piece 1 [⟨⟨2, ![a, b₁]⟩, x₁⟩, ⟨⟨2, ![a, b₂]⟩, x₂⟩, ⟨⟨2, ![a, b₃]⟩, x₃⟩] h (ix2 r c) 2 (by show (2 : ℕ) < 3; omega) ⟨2, ![a, b₃]⟩ x₃ rfl rfl (b₁ + (b₂ + 0)) rfl (ix2 r c')
    (fun b hb => by
      match b with
      | ⟨0, _⟩ => rfl
      | ⟨1, _⟩ => exact absurd rfl hb)
    (by show b₁ + (b₂ + 0) + c'.val = c.val; omega)

end Cert.Lib.Concat3

end
-- ==== Proof.MsgBridge.lean ====
/-
  The two message functions are one function.

  At edge e and output column c both are the gate of two affine maps of the edge's 160-entry row (destination features,
  source features, edge features). The kernel program pads the three row arrays with zero rows, takes the launch's
  array and cuts the padding off: an edge row below 800000 reads the unpadded arrays, so the padding never shows. Its
  affine maps are three dot products over the three stretches; the reference's are one dot product over the
  concatenated row. A sum over 64 + 64 + 32 consecutive positions is the sum of the three stretches' sums
  (Proof/RowMsg.lean), with nothing assumed finite; the gates agree entry by entry (Proof/GateLaw.lean).
-/
import proofs.«146160_j84353157693983_1_alg».proof.Proof.KerMsg
import proofs.«146160_j84353157693983_1_alg».proof.Proof.LibConcat3
import proofs.«146160_j84353157693983_1_alg».proof.Proof.LibPlainProduct
import Idealize.ShloMosaic.Lib.KernelVsHost
import Idealize.ShloMosaic.Lib.Pipeline.Value
import Idealize.ShloMosaic.Lib.ValueIdx

noncomputable section

namespace Cert.Bridge

open Cert.Net Cert.KNet Cert.Msg Idealize.ShloMosaic Idealize.ShloMosaic.ValueIdx

/-- The common value: the message entry from the UNPADDED rows of edge e. -/
def entry (xd xs : EdgeRows) (ea : EdgeFeat) (Wf : Weights) (bf : Bias) (Ws : Weights) (bs : Bias) (e : Fin 800000) (c : Fin 64) : EReal :=
  rowMsg (fun k => xd (ix2 e k)) (fun k => xs (ix2 e k)) (fun k => ea (ix2 e k))
    (fun k => Wf (ix2 k c)) (fun k => Ws (ix2 k c)) (bf (ix1 c)) (bs (ix1 c))

/-! ## The kernel program's side -/

/-- A padded 64-column row array at a row below 800000 is the unpadded array there. -/
theorem pad64_at (x : EdgeRows) (e : Fin 800000) (k : Fin 64) :
    padRows64 x (ix2 (⟨e.val, by omega⟩ : Fin 802816) k) = x (ix2 e k) := by
  unfold padRows64
  refine pad_apply_of_inside _ _ _ x padValue _ _ _ (ix2 e k) (fun a => ?_)
  match a with
  | ⟨0, _⟩ => show e.val = 0 + e.val * (0 + 1); omega
  | ⟨1, _⟩ => show k.val = 0 + k.val * (0 + 1); omega

/-- A padded 32-column row array at a row below 800000 is the unpadded array there. -/
theorem pad32_at (x : EdgeFeat) (e : Fin 800000) (k : Fin 32) :
    padRows32 x (ix2 (⟨e.val, by omega⟩ : Fin 802816) k) = x (ix2 e k) := by
  unfold padRows32
  refine pad_apply_of_inside _ _ _ x padValue _ _ _ (ix2 e k) (fun a => ?_)
  match a with
  | ⟨0, _⟩ => show e.val = 0 + e.val * (0 + 1); omega
  | ⟨1, _⟩ => show k.val = 0 + k.val * (0 + 1); omega

/-- A bias vector viewed as one row, at column c. -/
theorem biasRow_at (b : Bias) (c : Fin 64) : biasRow b (ix2 (0 : Fin 1) c) = b (ix1 c) := by
  unfold biasRow
  refine shapeCast_apply b _ (ix2 (0 : Fin 1) c) (ix1 c) ?_
  rw [Shape.rowMajor_val_one, Shape.rowMajor_val_two]
  show c.val = 0 * 64 + c.val
  omega

/-- The kernel program's message at (e, c). -/
theorem kernel_at (xd xs : EdgeRows) (ea : EdgeFeat) (Wf : Weights) (bf : Bias) (Ws : Weights) (bs : Bias) (e : Fin 800000) (c : Fin 64) :
    msgKer xd xs ea Wf bf Ws bs (ix2 e c) = entry xd xs ea Wf bf Ws bs e c := by
  unfold msgKer cutRows
  rw [extractStridedSlice_apply ![0, 0] _ _ (ix2 e c) (ix2 (⟨e.val, by omega⟩ : Fin 802816) c) (fun a => by
    match a with
    | ⟨0, _⟩ => show e.val = 0 + e.val; omega
    | ⟨1, _⟩ => show c.val = 0 + c.val; omega)]
  unfold launch
  rw [msgArray_apply]
  unfold msgEntry entry
  simp only [pad64_at, pad32_at, biasRow_at]

/-! ## The reference's side -/

/-- A scalar constant repeated over the edge rows, at any entry. -/
theorem splat_at (b : BitVec 32) (i : Cert.ReferenceIdeal.S800000x64.Idx) :
    broadcastInDim Cert.ReferenceIdeal.S800000x64 ![] Cert.ReferenceIdeal.Gen.bcast_S_S800000x64
      (constant (F := Ideal) Cert.ReferenceIdeal.S_ .f32 b) i = FloatOps.ofBits .f32 b := rfl

/-- A bias vector repeated down the edge rows, at (e, c). -/
theorem biasRows_at (b : Bias) (e : Fin 800000) (c : Fin 64) :
    broadcastInDim Cert.ReferenceIdeal.S800000x64 ![0, 1] Cert.ReferenceIdeal.Gen.bcast_S1x64_S800000x64_0_1
      (broadcastInDim Cert.ReferenceIdeal.S1x64 ![1] Cert.ReferenceIdeal.Gen.bcast_S64_S1x64_1 b) (ix2 e c) = b (ix1 c) := by
  rw [broadcastInDim_apply _ _ _ (ix2 e c) (ix2 (0 : Fin 1) c) (fun a => by
    match a with
    | ⟨0, _⟩ => rfl
    | ⟨1, _⟩ => rfl)]
  exact broadcastInDim_apply _ _ b (ix2 (0 : Fin 1) c) (ix1 c) (fun a => by
    match a with
    | ⟨0, _⟩ => rfl)

/-- The reference's affine map at (e, c): one dot product over the concatenated row, in its three stretches. -/
theorem linRef_at (xd xs : EdgeRows) (ea : EdgeFeat) (W : Weights) (b : Bias) (e : Fin 800000) (c : Fin 64) :
    linRef xd xs ea W b (ix2 e c)
      = lin3 (fun k => xd (ix2 e k)) (fun k => xs (ix2 e k)) (fun k => ea (ix2 e k)) (fun k => W (ix2 k c)) (b (ix1 c)) := by
  unfold linRef
  show FloatOps.addf (Host.dotGeneral _ none _ W (ix2 e c)) (broadcastInDim _ _ _ _ (ix2 e c)) = _
  rw [biasRows_at, Ideal.addf_def]
  rw [show Host.dotGeneral Cert.ReferenceIdeal.dot_S800000x160_S160x64_S800000x64_1_0_0_1_n_n none
        (concatenate Cert.ReferenceIdeal.S800000x160 1 [⟨Cert.ReferenceIdeal.S800000x64, xd⟩, ⟨Cert.ReferenceIdeal.S800000x64, xs⟩, ⟨Cert.ReferenceIdeal.S800000x32, ea⟩]
          Cert.ReferenceIdeal.Gen.concatenates_S800000x64_S800000x64_S800000x32_S800000x160_d1) W (ix2 e c)
      = ∑ k : Fin 160, (concatenate Cert.ReferenceIdeal.S800000x160 1 [⟨Cert.ReferenceIdeal.S800000x64, xd⟩, ⟨Cert.ReferenceIdeal.S800000x64, xs⟩, ⟨Cert.ReferenceIdeal.S800000x32, ea⟩]
          Cert.ReferenceIdeal.Gen.concatenates_S800000x64_S800000x64_S800000x32_S800000x160_d1) (ix2 e k) * W (ix2 k c)
      from PlainProduct.dotGeneral_at 800000 160 64 _ W e c]
  exact lin3_of_row _ _ _ _ _ _
    (fun k => Cert.Lib.Concat3.cols_first xd xs ea _ e ⟨k.val, by omega⟩ k rfl)
    (fun k => Cert.Lib.Concat3.cols_second xd xs ea _ e ⟨64 + k.val, by omega⟩ k rfl)
    (fun k => Cert.Lib.Concat3.cols_third xd xs ea _ e ⟨64 + 64 + k.val, by omega⟩ k rfl)

/-- The reference's message at (e, c). -/
theorem reference_at (xd xs : EdgeRows) (ea : EdgeFeat) (Wf : Weights) (bf : Bias) (Ws : Weights) (bs : Bias) (e : Fin 800000) (c : Fin 64) :
    msgRef xd xs ea Wf bf Ws bs (ix2 e c) = entry xd xs ea Wf bf Ws bs e c := by
  unfold msgRef softplusRef
  simp only [mulf, Host.divf, addf, Host.exp, Host.negf, select, cmpf, subf, maximumf, Host.log1p, Host.absf]
  refine (reference_gate (linRef xd xs ea Wf bf (ix2 e c)) (linRef xd xs ea Ws bs (ix2 e c))).trans ?_
  rw [linRef_at, linRef_at]
  rfl

/-- THE TWO MESSAGE FUNCTIONS ARE EQUAL. -/
theorem msg_eq : msgKer = msgRef := by
  funext xd xs ea Wf bf Ws bs i
  obtain ⟨e, c, rfl⟩ : ∃ (e : Fin 800000) (c : Fin 64), i = ix2 e c := ⟨i 0, i 1, eq_ix2 i⟩
  rw [kernel_at, reference_at]

end Cert.Bridge

end
-- ==== Proof.lean ====
/-
  The certificate of a two-layer crystal-graph convolution network: per edge, the message
  sigmoid(W_f · z + b_f) · softplus(W_s · z + b_s) of the row z = [destination features, source features, edge features],
  summed into the destination node and added to the node's features; two such layers; then the per-graph sum of node
  features, an output column and a bias.

  The kernel program computes the messages by a blocked kernel launched once per layer over edge rows padded to a
  multiple of the block, each linear map as three matrix products over the three stretches of z; the reference
  concatenates z and takes one product. On the extended reals a finite sum over 64 + 64 + 32 consecutive positions is
  the sum of its stretches' sums, roundings to a narrower format are the identity, the one-operation sigmoid is
  1 / (1 + e^(−x)), and the padding rows are cut off again: the two message functions are one function
  (Proof/MsgBridge.lean), with nothing assumed finite. Every other operation — the gathers of node rows by edge end, the
  scatter-additions, the pooling — is the same text in both programs, carried as one composition (Proof/Net.lean) that
  is never opened. Each program's run is read back to that composition at its own message function
  (Proof/KerValue.lean over the launches' arrays of Proof/Region0.lean and Proof/Region1.lean; Proof/RefValue.lean).
-/
import proofs.«146160_j84353157693983_1_alg».proof.Defs
import proofs.«146160_j84353157693983_1_alg».proof.Proof.Gen.Kernel
import proofs.«146160_j84353157693983_1_alg».proof.Proof.Gen.Kernel.Skeleton
import proofs.«146160_j84353157693983_1_alg».proof.Proof.Gen.Kernel.Launch
import proofs.«146160_j84353157693983_1_alg».proof.Proof.Gen.Kernel.Points
import proofs.«146160_j84353157693983_1_alg».proof.Proof.Gen.Kernel.Frame
import proofs.«146160_j84353157693983_1_alg».proof.Proof.Gen.KernelIdeal
import proofs.«146160_j84353157693983_1_alg».proof.Proof.Gen.KernelIdeal.Skeleton
import proofs.«146160_j84353157693983_1_alg».proof.Proof.Gen.KernelIdeal.Launch
import proofs.«146160_j84353157693983_1_alg».proof.Proof.Gen.KernelIdeal.Points
import proofs.«146160_j84353157693983_1_alg».proof.Proof.Gen.KernelIdeal.Frame
import proofs.«146160_j84353157693983_1_alg».proof.Proof.Gen.ReferenceIdeal
import proofs.«146160_j84353157693983_1_alg».proof.Proof.Gen.Pre_finite_inputs
import proofs.«146160_j84353157693983_1_alg».proof.Proof.KerRun
import proofs.«146160_j84353157693983_1_alg».proof.Proof.KerValue
import proofs.«146160_j84353157693983_1_alg».proof.Proof.RefValue
import proofs.«146160_j84353157693983_1_alg».proof.Proof.MsgBridge
import Idealize.ShloMosaic.Adequacy
import Idealize.ShloMosaic.Init

noncomputable section

namespace Cert.Proof

open Idealize.ShloMosaic Idealize.ShloMosaic.TcCoe Idealize.SL.Sem Idealize.ShloMosaic.StableHlo

/-- The reference runs and leaves its arguments: its run with the result dropped. -/
theorem frame_reference : Cert.frame_ReferenceIdeal := fun m ρ _ =>
  (θ_run Cert.ReferenceIdeal.defs _ _).mono (fun _ h c =>
    ⟨(h c Cert.ReferenceIdeal.main_arg0).trans (Cert.RefValue.keeps_arg0 _),
     (h c Cert.ReferenceIdeal.main_arg1).trans (Cert.RefValue.keeps_arg1 _),
     (h c Cert.ReferenceIdeal.main_arg2).trans (Cert.RefValue.keeps_arg2 _),
     (h c Cert.ReferenceIdeal.main_arg3).trans (Cert.RefValue.keeps_arg3 _),
     (h c Cert.ReferenceIdeal.main_arg4).trans (Cert.RefValue.keeps_arg4 _),
     (h c Cert.ReferenceIdeal.main_arg5).trans (Cert.RefValue.keeps_arg5 _),
     (h c Cert.ReferenceIdeal.main_arg6).trans (Cert.RefValue.keeps_arg6 _),
     (h c Cert.ReferenceIdeal.main_arg7).trans (Cert.RefValue.keeps_arg7 _),
     (h c Cert.ReferenceIdeal.main_arg8).trans (Cert.RefValue.keeps_arg8 _),
     (h c Cert.ReferenceIdeal.main_arg9).trans (Cert.RefValue.keeps_arg9 _),
     (h c Cert.ReferenceIdeal.main_arg10).trans (Cert.RefValue.keeps_arg10 _),
     (h c Cert.ReferenceIdeal.main_arg11).trans (Cert.RefValue.keeps_arg11 _),
     (h c Cert.ReferenceIdeal.main_arg12).trans (Cert.RefValue.keeps_arg12 _),
     (h c Cert.ReferenceIdeal.main_arg13).trans (Cert.RefValue.keeps_arg13 _)⟩)
    (Cert.ReferenceIdeal.ValueP.run_raw (F := Ideal) m ρ)

/-- Both idealized programs end at the network of the arguments at one message function. -/
theorem algebraic : Cert.algebraic_KernelIdeal_ReferenceIdeal := by
  intro m ρ m' ρ' _ hagree
  refine ⟨fun c => Cert.Net.net Cert.KNet.msgKer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.KValue.result_is_net m ρ c), (h c).2⟩)
      (Cert.KernelIdeal.Run.run_main (F := Ideal) m ρ)
  · refine (θ_run Cert.ReferenceIdeal.defs _ _).mono (fun _ h c =>
      ⟨(h c Cert.ReferenceIdeal.main_v84).trans ((Cert.RefValue.result_is_net _).trans ?_),
       (h c Cert.ReferenceIdeal.main_arg0).trans (Cert.RefValue.keeps_arg0 _),
       (h c Cert.ReferenceIdeal.main_arg1).trans (Cert.RefValue.keeps_arg1 _),
       (h c Cert.ReferenceIdeal.main_arg2).trans (Cert.RefValue.keeps_arg2 _),
       (h c Cert.ReferenceIdeal.main_arg3).trans (Cert.RefValue.keeps_arg3 _),
       (h c Cert.ReferenceIdeal.main_arg4).trans (Cert.RefValue.keeps_arg4 _),
       (h c Cert.ReferenceIdeal.main_arg5).trans (Cert.RefValue.keeps_arg5 _),
       (h c Cert.ReferenceIdeal.main_arg6).trans (Cert.RefValue.keeps_arg6 _),
       (h c Cert.ReferenceIdeal.main_arg7).trans (Cert.RefValue.keeps_arg7 _),
       (h c Cert.ReferenceIdeal.main_arg8).trans (Cert.RefValue.keeps_arg8 _),
       (h c Cert.ReferenceIdeal.main_arg9).trans (Cert.RefValue.keeps_arg9 _),
       (h c Cert.ReferenceIdeal.main_arg10).trans (Cert.RefValue.keeps_arg10 _),
       (h c Cert.ReferenceIdeal.main_arg11).trans (Cert.RefValue.keeps_arg11 _),
       (h c Cert.ReferenceIdeal.main_arg12).trans (Cert.RefValue.keeps_arg12 _),
       (h c Cert.ReferenceIdeal.main_arg13).trans (Cert.RefValue.keeps_arg13 _)⟩)
      (Cert.ReferenceIdeal.ValueP.run_raw (F := Ideal) m' ρ')
    obtain ⟨h0, h1, h2, h3, h4, h5, h6, h7, h8, h9, h10, h11, h12, h13⟩ := hagree c
    rw [← Cert.Bridge.msg_eq]
    show Cert.Net.net Cert.KNet.msgKer (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
    rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
